-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S1x256 : Shape := ⟨2, ![1, 256]⟩
abbrev S256 : Shape := ⟨1, ![256]⟩
abbrev S256x64 : Shape := ⟨2, ![256, 64]⟩
abbrev S64 : Shape := ⟨1, ![64]⟩
abbrev S64x16 : Shape := ⟨2, ![64, 16]⟩
abbrev S16 : Shape := ⟨1, ![16]⟩
abbrev S16x6 : Shape := ⟨2, ![16, 6]⟩
abbrev S6 : Shape := ⟨1, ![6]⟩
abbrev S2x800000 : Shape := ⟨2, ![2, 800000]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x6 : S_.BroadcastsInDim S16x6 (![] : Fin 0 → Fin S16x6.rank)
  reducesTo_S16x6_S_d0_1 : S16x6.ReducesTo [0, 1] S_
  bcast_S_S6 : S_.BroadcastsInDim S6 (![] : Fin 0 → Fin S6.rank)
  reducesTo_S6_S_d0 : S6.ReducesTo [0] S_

variable [Facts]

def fn_part4 {F : FTy → Type} [FloatOps F] (main_arg14 : FVec F S16 .f32) (main_arg15 : FVec F S16x6 .f32) (main_arg16 : FVec F S6 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16x6 .f32 := Host.absf main_arg15
  let main_cst_28 : FVec F S_ .f32 := constant S_ .f32 0x7F800000#32
  let main_v75 : FVec F S16x6 .f32 := broadcastInDim S16x6 ![] bcast_S_S16x6 main_cst_28
  let main_v76 : IVec S16x6 1 := cmpf .olt main_v74 main_v75
  let main_c_29 : IVec S_ 1 := constantI S_ 1 1#1
  let main_v77 : IVec S_ 1 := (fun x v => Host.reduce IntOp.andi x v reducesTo_S16x6_S_d0_1 h_S_) main_v76 main_c_29
  let main_v78 : IVec S_ 1 := andi main_v73 main_v77
  let main_v79 : FVec F S6 .f32 := Host.absf main_arg16
  let main_cst_30 : FVec F S_ .f32 := constant S_ .f32 0x7F800000#32
  let main_v80 : FVec F S6 .f32 := broadcastInDim S6 ![] bcast_S_S6 main_cst_30
  let main_v81 : IVec S6 1 := cmpf .olt main_v79 main_v80
  let main_c_31 : IVec S_ 1 := constantI S_ 1 1#1
  let main_v82 : IVec S_ 1 := (fun x v => Host.reduce IntOp.andi x v reducesTo_S6_S_d0 h_S_) main_v81 main_c_31
  let main_v83 : IVec S_ 1 := andi main_v78 main_v82
  main_v83

def fn_part3 {F : FTy → Type} [FloatOps F] (main_arg11 : FVec F S64 .f32) (main_arg12 : FVec F S64 .f32) (main_arg13 : FVec F S64x16 .f32) (main_arg14 : FVec F S16 .f32) (main_arg15 : FVec F S16x6 .f32) (main_arg16 : FVec F S6 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x16 .f32 := Host.absf main_arg13
  let main_cst_24 : FVec F S_ .f32 := constant S_ .f32 0x7F800000#32
  let main_v65 : FVec F S64x16 .f32 := broadcastInDim S64x16 ![] bcast_S_S64x16 main_cst_24
  let main_v66 : IVec S64x16 1 := cmpf .olt main_v64 main_v65
  let main_c_25 : IVec S_ 1 := constantI S_ 1 1#1
  let main_v67 : IVec S_ 1 := (fun x v => Host.reduce IntOp.andi x v reducesTo_S64x16_S_d0_1 h_S_) main_v66 main_c_25
  fn_part4 (F := F) main_arg14 main_arg15 main_arg16 main_v63 main_v67

def fn_part2 {F : FTy → Type} [FloatOps F] (main_arg7 : FVec F S256x64 .f32) (main_arg8 : FVec F S64 .f32) (main_arg9 : FVec F S64 .f32) (main_arg10 : FVec F S64 .f32) (main_arg11 : FVec F S64 .f32) (main_arg12 : FVec F S64 .f32) (main_arg13 : FVec F S64x16 .f32) (main_arg14 : FVec F S16 .f32) (main_arg15 : FVec F S16x6 .f32) (main_arg16 : FVec F S6 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_v48 main_v49 main_v50

def fn_part1 {F : FTy → Type} [FloatOps F] (main_arg4 : FVec F S256 .f32) (main_arg5 : FVec F S256 .f32) (main_arg6 : FVec F S256 .f32) (main_arg7 : FVec F S256x64 .f32) (main_arg8 : FVec F S64 .f32) (main_arg9 : FVec F S64 .f32) (main_arg10 : FVec F S64 .f32) (main_arg11 : FVec F S64 .f32) (main_arg12 : FVec F S64 .f32) (main_arg13 : FVec F S64x16 .f32) (main_arg14 : FVec F S16 .f32) (main_arg15 : FVec F S16x6 .f32) (main_arg16 : FVec F S6 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S50000x1 .f32) (main_arg1 : FVec F S1x256 .f32) (main_arg2 : FVec F S256 .f32) (main_arg3 : FVec F S256 .f32) (main_arg4 : FVec F S256 .f32) (main_arg5 : FVec F S256 .f32) (main_arg6 : FVec F S256 .f32) (main_arg7 : FVec F S256x64 .f32) (main_arg8 : FVec F S64 .f32) (main_arg9 : FVec F S64 .f32) (main_arg10 : FVec F S64 .f32) (main_arg11 : FVec F S64 .f32) (main_arg12 : FVec F S64 .f32) (main_arg13 : FVec F S64x16 .f32) (main_arg14 : FVec F S16 .f32) (main_arg15 : FVec F S16x6 .f32) (main_arg16 : FVec F S6 .f32) (main_arg17 : IVec S2x800000 32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S50000x1 : Shape := ⟨2, ![50000, 1]⟩
abbrev S1x256 : Shape := ⟨2, ![1, 256]⟩
abbrev S256 : Shape := ⟨1, ![256]⟩
abbrev S256x64 : Shape := ⟨2, ![256, 64]⟩
abbrev S64 : Shape := ⟨1, ![64]⟩
abbrev S64x16 : Shape := ⟨2, ![64, 16]⟩
abbrev S16 : Shape := ⟨1, ![16]⟩
abbrev S16x6 : Shape := ⟨2, ![16, 6]⟩
abbrev S6 : Shape := ⟨1, ![6]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x1 : Shape := ⟨2, ![5000, 1]⟩
abbrev S5000x256 : Shape := ⟨2, ![5000, 256]⟩
abbrev S850000x256 : Shape := ⟨2, ![850000, 256]⟩
abbrev S50000x64 : Shape := ⟨2, ![50000, 64]⟩
abbrev S5000x64 : Shape := ⟨2, ![5000, 64]⟩
abbrev S850000x64 : Shape := ⟨2, ![850000, 64]⟩
abbrev S50000x6 : Shape := ⟨2, ![50000, 6]⟩
abbrev S5000x6 : Shape := ⟨2, ![5000, 6]⟩
abbrev S1x64 : Shape := ⟨2, ![1, 64]⟩
abbrev S5000x16 : Shape := ⟨2, ![5000, 16]⟩
abbrev S1x16 : Shape := ⟨2, ![1, 16]⟩
abbrev S1x6 : Shape := ⟨2, ![1, 6]⟩
abbrev S5000 : Shape := ⟨1, ![5000]⟩

abbrev nBuf : Space → Nat
  | .hbm => 93
  | .vmem => 28
  | .smem => 0
  | _ => 0

abbrev bufTy : (tb : Table) → Fin (tcTables nBuf tb) → BufTy
  | .hbm, ⟨0, _⟩ => ⟨S50000x1, .f32⟩
  | .hbm, ⟨1, _⟩ => ⟨S1x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x16, .f32⟩
  | .hbm, ⟨14, _⟩ => ⟨S16, .f32⟩
  | .hbm, ⟨15, _⟩ => ⟨S16x6, .f32⟩
  | .hbm, ⟨16, _⟩ => ⟨S6, .f32⟩
  | .hbm, ⟨17, _⟩ => ⟨S2x800000, .i32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S50000, .i32⟩
  | .hbm, ⟨23, _⟩ => ⟨S850000, .i32⟩
  | .hbm, ⟨24, _⟩ => ⟨S850000, .i32⟩
  | .hbm, ⟨25, _⟩ => ⟨S_, .f32⟩
  | .hbm, ⟨26, _⟩ => ⟨S850000, .f32⟩
  | .hbm, ⟨27, _⟩ => ⟨S_, .f32⟩
  | .hbm, ⟨28, _⟩ => ⟨S50000, .f32⟩
  | .hbm, ⟨29, _⟩ => ⟨S850000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S50000x256, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x256, .f32⟩
  | .hbm, ⟨68, _⟩ => ⟨S850000x1, .f32⟩
  | .hbm, ⟨69, _⟩ => ⟨S850000x256, .f32⟩
  | .hbm, ⟨70, _⟩ => ⟨S850000x256, .f32⟩
  | .hbm, ⟨71, _⟩ => ⟨S_, .f32⟩
  | .hbm, ⟨72, _⟩ => ⟨S50000x256, .f32⟩
  | .hbm, ⟨73, _⟩ => ⟨S850000x1, .i32⟩
  | .hbm, ⟨74, _⟩ => ⟨S50000x256, .f32⟩
  | .hbm, ⟨75, _⟩ => ⟨S50000x64, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x64, .f32⟩
  | .hbm, ⟨85, _⟩ => ⟨S850000x1, .f32⟩
  | .hbm, ⟨86, _⟩ => ⟨S850000x64, .f32⟩
  | .hbm, ⟨87, _⟩ => ⟨S850000x64, .f32⟩
  | .hbm, ⟨88, _⟩ => ⟨S_, .f32⟩
  | .hbm, ⟨89, _⟩ => ⟨S50000x64, .f32⟩
  | .hbm, ⟨90, _⟩ => ⟨S850000x1, .i32⟩
  | .hbm, ⟨91, _⟩ => ⟨S50000x64, .f32⟩
  | .hbm, ⟨92, _⟩ => ⟨S50000x6, .f32⟩
  | .local _ .vmem, ⟨0, _⟩ => ⟨S5000x1, .f32⟩
  | .local _ .vmem, ⟨1, _⟩ => ⟨S5000x1, .f32⟩
  | .local _ .vmem, ⟨2, _⟩ => ⟨S1x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S64, .f32⟩
  | .local _ .vmem, ⟨19, _⟩ => ⟨S64, .f32⟩
  | .local _ .vmem, ⟨20, _⟩ => ⟨S64, .f32⟩
  | .local _ .vmem, ⟨21, _⟩ => ⟨S64, .f32⟩
  | .local _ .vmem, ⟨22, _⟩ => ⟨S64x16, .f32⟩
  | .local _ .vmem, ⟨23, _⟩ => ⟨S16, .f32⟩
  | .local _ .vmem, ⟨24, _⟩ => ⟨S16x6, .f32⟩
  | .local _ .vmem, ⟨25, _⟩ => ⟨S6, .f32⟩
  | .local _ .vmem, ⟨26, _⟩ => ⟨S5000x6, .f32⟩
  | .local _ .vmem, ⟨27, _⟩ => ⟨S5000x6, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_9 : Ref sig .tc := ⟨.hbm, 76, rfl⟩
abbrev main_v45 : Ref sig .tc := ⟨.hbm, 77, rfl⟩
abbrev main_v46 : Ref sig .tc := ⟨.hbm, 78, rfl⟩
abbrev main_c_10 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg10_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem10_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S16x6 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S6 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x6 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x1_S5000x1_0_0 : ∀ a, (![0, 0] : Fin 2 → Nat) a + S5000x1.size a ≤ S5000x1.size a
  h_S5000x1 : 0 < S5000x1.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S5000x256_S5000x256 : S5000x256.ShapeCasts S5000x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S16x6_S16x6_0_0 : ∀ a, (![0, 0] : Fin 2 → Nat) a + S16x6.size a ≤ S16x6.size a
  h_S16x6 : 0 < S16x6.numel
  inb_S6_S6_0 : ∀ a, (![0] : Fin 1 → Nat) a + S6.size a ≤ S6.size a
  h_S6 : 0 < S6.numel
  shapeCasts_S6_S1x6 : S6.ShapeCasts S1x6
  broadcasts_S1x6_S5000x6 : S1x6.Broadcasts S5000x6
  reduces_S5000x6_S5000 : S5000x6.Reduces [1] S5000
  shapeCasts_S5000_S5000x1 : S5000.ShapeCasts S5000x1
  broadcasts_S5000x1_S5000x6 : S5000x1.Broadcasts S5000x6
  inb_S5000x6_S5000x6_0_0 : ∀ a, (![0, 0] : Fin 2 → Nat) a + S5000x6.size a ≤ S5000x6.size a
  h_S5000x6 : 0 < S5000x6.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x1_S1x256_S5000x256_1_0_0_1_n_n_wf : DotDims.WF S5000x1 S1x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x16_S5000x16_1_0_0_1_n_n_wf : DotDims.WF S5000x64 S64x16 S5000x16 [1] [0] [0] [1] [] []
  dot_S5000x16_S16x6_S5000x6_1_0_0_1_n_n_wf : DotDims.WF S5000x16 S16x6 S5000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .f32 = 32 ∨ (Rect.block (s := S50000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x64.size a ≤ S256x64.size a
  hwx1_6 : ∀ i : grid1.Coords, EltTy.bits .f32 = 32 ∨ (Rect.block (s := S256x64) S256x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x16.size a ≤ S64x16.size a
  hwx2_6 : ∀ i : grid2.Coords, EltTy.bits .f32 = 32 ∨ (Rect.block (s := S64x16) S64x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S16.size a ≤ S16.size a
  hwx2_7 : ∀ i : grid2.Coords, EltTy.bits .f32 = 32 ∨ (Rect.block (s := S16) S16.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S16x6.size a ≤ S16x6.size a
  hwx2_8 : ∀ i : grid2.Coords, EltTy.bits .f32 = 32 ∨ (Rect.block (s := S16x6) S16x6.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S6.size a ≤ S6.size a
  hwx2_9 : ∀ i : grid2.Coords, EltTy.bits .f32 = 32 ∨ (Rect.block (s := S6) S6.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x6.size a ≤ S50000x6.size a
  hwx2_10 : ∀ i : grid2.Coords, EltTy.bits .f32 = 32 ∨ (Rect.block (s := S50000x6) S5000x6.size (cc2_transform_10 i) (hinb2_10 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x1_S1x256_S5000x256_1_0_0_1_n_n : DotDims S5000x1 S1x256 S5000x256 where
  lhsContracting := [1]
  rhsContracting := [0]
  lhsNonContracting := [0]
  rhsNonContracting := [1]
  lhsBatch := []
  rhsBatch := []
  wf := dot_S5000x1_S1x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def dot_S5000x16_S16x6_S5000x6_1_0_0_1_n_n : DotDims S5000x16 S16x6 S5000x6 where
  lhsContracting := [1]
  rhsContracting := [0]
  lhsNonContracting := [0]
  rhsNonContracting := [1]
  lhsBatch := []
  rhsBatch := []
  wf := dot_S5000x16_S16x6_S5000x6_1_0_0_1_n_n_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S256x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S64x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg15) S16x6.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg16) S6.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v58) S5000x6.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x1 : Shape := ⟨2, ![50000, 1]⟩
abbrev S1x256 : Shape := ⟨2, ![1, 256]⟩
abbrev S256 : Shape := ⟨1, ![256]⟩
abbrev S256x64 : Shape := ⟨2, ![256, 64]⟩
abbrev S64 : Shape := ⟨1, ![64]⟩
abbrev S64x16 : Shape := ⟨2, ![64, 16]⟩
abbrev S16 : Shape := ⟨1, ![16]⟩
abbrev S16x6 : Shape := ⟨2, ![16, 6]⟩
abbrev S6 : Shape := ⟨1, ![6]⟩
abbrev S2x800000 : Shape := ⟨2, ![2, 800000]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S50000x64 : Shape := ⟨2, ![50000, 64]⟩
abbrev S850000x64 : Shape := ⟨2, ![850000, 64]⟩
abbrev S1x64 : Shape := ⟨2, ![1, 64]⟩
abbrev S50000x16 : Shape := ⟨2, ![50000, 16]⟩
abbrev S1x16 : Shape := ⟨2, ![1, 16]⟩
abbrev S50000x6 : Shape := ⟨2, ![50000, 6]⟩
abbrev S1x6 : Shape := ⟨2, ![1, 6]⟩

abbrev nBuf : Space → Nat
  | .hbm => 198
  | .vmem => 0
  | .smem => 0
  | _ => 0

abbrev hbmTy0_0 (i : Nat) : BufTy := match i % 128 with
  | 0 => ⟨S50000x1, .f32⟩
  | 1 => ⟨S1x256, .f32⟩
  | 2 => ⟨S256, .f32⟩
  | 3 => ⟨S256, .f32⟩
  | 4 => ⟨S256, .f32⟩
  | 5 => ⟨S256, .f32⟩
  | 6 => ⟨S256, .f32⟩
  | 7 => ⟨S256x64, .f32⟩
  | 8 => ⟨S64, .f32⟩
  | 9 => ⟨S64, .f32⟩
  | 10 => ⟨S64, .f32⟩
  | 11 => ⟨S64, .f32⟩
  | 12 => ⟨S64, .f32⟩
  | 13 => ⟨S64x16, .f32⟩
  | 14 => ⟨S16, .f32⟩
  | 15 => ⟨S16x6, .f32⟩
  | 16 => ⟨S6, .f32⟩
  | 17 => ⟨S2x800000, .i32⟩
  | 18 => ⟨S1x800000, .i32⟩
  | 19 => ⟨S800000, .i32⟩
  | 20 => ⟨S1x800000, .i32⟩
  | 21 => ⟨S800000, .i32⟩
  | 22 => ⟨S50000x256, .f32⟩
  | 23 => ⟨S50000, .i32⟩
  | 24 => ⟨S850000, .i32⟩
  | 25 => ⟨S850000, .i32⟩
  | 26 => ⟨S_, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x256, .f32⟩
  | 68 => ⟨S850000x1, .f32⟩
  | 69 => ⟨S850000x256, .f32⟩
  | 70 => ⟨S850000x256, .f32⟩
  | 71 => ⟨S_, .f32⟩
  | 72 => ⟨S50000x256, .f32⟩
  | 73 => ⟨S850000x1, .i32⟩
  | 74 => ⟨S50000x256, .f32⟩
  | 75 => ⟨S1x256, .f32⟩
  | 76 => ⟨S50000x256, .f32⟩
  | 77 => ⟨S50000x256, .f32⟩
  | 78 => ⟨S1x256, .f32⟩
  | 79 => ⟨S50000x256, .f32⟩
  | 80 => ⟨S50000x256, .f32⟩
  | 81 => ⟨S_, .f32⟩
  | 82 => ⟨S256, .f32⟩
  | 83 => ⟨S256, .f32⟩
  | 84 => ⟨S256, .f32⟩
  | 85 => ⟨S1x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S1x256, .f32⟩
  | 92 => ⟨S50000x256, .f32⟩
  | 93 => ⟨S50000x256, .f32⟩
  | 94 => ⟨S_, .f32⟩
  | 95 => ⟨S50000x256, .f32⟩
  | 96 => ⟨S50000x256, .f32⟩
  | 97 => ⟨S50000x64, .f32⟩
  | 98 => ⟨S50000, .i32⟩
  | 99 => ⟨S850000, .i32⟩
  | 100 => ⟨S850000, .i32⟩
  | 101 => ⟨S_, .f32⟩
  | 102 => ⟨S850000, .f32⟩
  | 103 => ⟨S_, .f32⟩
  | 104 => ⟨S50000, .f32⟩
  | 105 => ⟨S850000x1, .i32⟩
  | 106 => ⟨S50000, .f32⟩
  | 107 => ⟨S_, .f32⟩
  | 108 => ⟨S50000, .f32⟩
  | 109 => ⟨S50000, .i1⟩
  | 110 => ⟨S50000, .f32⟩
  | 111 => ⟨S_, .f32⟩
  | 112 => ⟨S_, .f32⟩
  | 113 => ⟨S50000, .f32⟩
  | 114 => ⟨S50000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000, .f32⟩
  | 124 => ⟨S_, .i32⟩
  | 125 => ⟨S850000, .i32⟩
  | 126 => ⟨S850000, .i1⟩
  | 127 => ⟨S_, .i32⟩
  | _ => ⟨S50000x1, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000, .f32⟩
  | 5 => ⟨S850000, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x64, .f32⟩
  | 15 => ⟨S850000x1, .f32⟩
  | 16 => ⟨S850000x64, .f32⟩
  | 17 => ⟨S850000x64, .f32⟩
  | 18 => ⟨S_, .f32⟩
  | 19 => ⟨S50000x64, .f32⟩
  | 20 => ⟨S850000x1, .i32⟩
  | 21 => ⟨S50000x64, .f32⟩
  | 22 => ⟨S1x64, .f32⟩
  | 23 => ⟨S50000x64, .f32⟩
  | 24 => ⟨S50000x64, .f32⟩
  | 25 => ⟨S1x64, .f32⟩
  | 26 => ⟨S50000x64, .f32⟩
  | 27 => ⟨S50000x64, .f32⟩
  | 28 => ⟨S_, .f32⟩
  | 29 => ⟨S64, .f32⟩
  | 30 => ⟨S64, .f32⟩
  | 31 => ⟨S64, .f32⟩
  | 32 => ⟨S1x64, .f32⟩
  | 33 => ⟨S50000x64, .f32⟩
  | 34 => ⟨S50000x64, .f32⟩
  | 35 => ⟨S1x64, .f32⟩
  | 36 => ⟨S50000x64, .f32⟩
  | 37 => ⟨S50000x64, .f32⟩
  | 38 => ⟨S1x64, .f32⟩
  | 39 => ⟨S50000x64, .f32⟩
  | 40 => ⟨S50000x64, .f32⟩
  | 41 => ⟨S_, .f32⟩
  | 42 => ⟨S50000x64, .f32⟩
  | 43 => ⟨S50000x64, .f32⟩
  | 44 => ⟨S50000x16, .f32⟩
  | 45 => ⟨S1x16, .f32⟩
  | 46 => ⟨S50000x16, .f32⟩
  | 47 => ⟨S50000x16, .f32⟩
  | 48 => ⟨S_, .f32⟩
  | 49 => ⟨S50000x16, .f32⟩
  | 50 => ⟨S50000x16, .f32⟩
  | 51 => ⟨S50000x6, .f32⟩
  | 52 => ⟨S1x6, .f32⟩
  | 53 => ⟨S50000x6, .f32⟩
  | 54 => ⟨S50000x6, .f32⟩
  | 55 => ⟨S_, .f32⟩
  | 56 => ⟨S50000, .f32⟩
  | 57 => ⟨S_, .f32⟩
  | 58 => ⟨S50000, .f32⟩
  | 59 => ⟨S50000, .f32⟩
  | 60 => ⟨S50000x1, .f32⟩
  | 61 => ⟨S50000x6, .f32⟩
  | 62 => ⟨S50000x6, .f32⟩
  | 63 => ⟨S50000x6, .f32⟩
  | 64 => ⟨S_, .f32⟩
  | 65 => ⟨S50000, .f32⟩
  | 66 => ⟨S50000x1, .f32⟩
  | 67 => ⟨S50000x1, .f32⟩
  | 68 => ⟨S50000x6, .f32⟩
  | 69 => ⟨S50000x6, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call1_cst : Ref sig .tc := ⟨.hbm, 94, rfl⟩
abbrev main_call1_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_10 : Ref sig .tc := ⟨.hbm, 101, rfl⟩
abbrev main_v67 : Ref sig .tc := ⟨.hbm, 102, rfl⟩
abbrev main_cst_11 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_13 : Ref sig .tc := ⟨.hbm, 111, rfl⟩
abbrev main_call2_v0 : Ref sig .tc := ⟨.hbm, 112, rfl⟩
abbrev main_call2_v1 : Ref sig .tc := ⟨.hbm, 113, rfl⟩
abbrev main_v74 : Ref sig .tc := ⟨.hbm, 114, rfl⟩
abbrev main_c_14 : Ref sig .tc := ⟨.hbm, 115, rfl⟩
abbrev main_v75 : Ref sig .tc := ⟨.hbm, 116, rfl⟩
abbrev main_v76 : Ref sig .tc := ⟨.hbm, 117, rfl⟩
abbrev main_c_15 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_16 : Ref sig .tc := ⟨.hbm, 124, rfl⟩
abbrev main_v82 : Ref sig .tc := ⟨.hbm, 125, rfl⟩
abbrev main_v83 : Ref sig .tc := ⟨.hbm, 126, rfl⟩
abbrev main_c_17 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_18 : Ref sig .tc := ⟨.hbm, 134, rfl⟩
abbrev main_v90 : Ref sig .tc := ⟨.hbm, 135, rfl⟩
abbrev main_v91 : Ref sig .tc := ⟨.hbm, 136, rfl⟩
abbrev main_c_19 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_20 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_21 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_call3_cst : Ref sig .tc := ⟨.hbm, 169, rfl⟩
abbrev main_call3_v0 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_call4_cst : Ref sig .tc := ⟨.hbm, 176, rfl⟩
abbrev main_call4_v0 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_call5_cst : Ref sig .tc := ⟨.hbm, 183, rfl⟩
abbrev main_call5_v0 : Ref sig .tc := ⟨.hbm, 184, rfl⟩
abbrev main_call5_cst_0 : Ref sig .tc := ⟨.hbm, 185, rfl⟩
abbrev main_call5_v1 : Ref sig .tc := ⟨.hbm, 186, rfl⟩
abbrev main_call5_v2 : Ref sig .tc := ⟨.hbm, 187, rfl⟩
abbrev main_call5_v3 : Ref sig .tc := ⟨.hbm, 188, rfl⟩
abbrev main_call5_v4 : Ref sig .tc := ⟨.hbm, 189, rfl⟩
abbrev main_call5_v5 : Ref sig .tc := ⟨.hbm, 190, rfl⟩
abbrev main_call5_v6 : Ref sig .tc := ⟨.hbm, 191, rfl⟩
abbrev main_call5_cst_1 : Ref sig .tc := ⟨.hbm, 192, rfl⟩
abbrev main_call5_v7 : Ref sig .tc := ⟨.hbm, 193, rfl⟩
abbrev main_call5_v8 : Ref sig .tc := ⟨.hbm, 194, rfl⟩
abbrev main_call5_v9 : Ref sig .tc := ⟨.hbm, 195, rfl⟩
abbrev main_call5_v10 : Ref sig .tc := ⟨.hbm, 196, rfl⟩
abbrev main_v131 : Ref sig .tc := ⟨.hbm, 197, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  reducesTo_S50000x6_S50000_d1 : S50000x6.ReducesTo [1] S50000
  h_S_ : 0 < S_.numel
  bcast_S50000_S50000x1_0 : S50000.BroadcastsInDim S50000x1 (![0] : Fin 1 → Fin S50000x1.rank)
  bcast_S50000x1_S50000x6_0_1 : S50000x1.BroadcastsInDim S50000x6 (![0, 1] : Fin 2 → Fin S50000x6.rank)
  dot_S50000x1_S1x256_S50000x256_1_0_0_1_n_n_wf : DotDims.WF S50000x1 S1x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x16_S50000x16_1_0_0_1_n_n_wf : DotDims.WF S50000x64 S64x16 S50000x16 [1] [0] [0] [1] [] []
  dot_S50000x16_S16x6_S50000x6_1_0_0_1_n_n_wf : DotDims.WF S50000x16 S16x6 S50000x6 [1] [0] [0] [1] [] []

variable [Facts₀]

def dot_S50000x1_S1x256_S50000x256_1_0_0_1_n_n : DotDims S50000x1 S1x256 S50000x256 where
  lhsContracting := [1]
  rhsContracting := [0]
  lhsNonContracting := [0]
  rhsNonContracting := [1]
  lhsBatch := []
  rhsBatch := []
  wf := dot_S50000x1_S1x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def dot_S50000x16_S16x6_S50000x6_1_0_0_1_n_n : DotDims S50000x16 S16x6 S50000x6 where
  lhsContracting := [1]
  rhsContracting := [0]
  lhsNonContracting := [0]
  rhsNonContracting := [1]
  lhsBatch := []
  rhsBatch := []
  wf := dot_S50000x16_S16x6_S50000x6_1_0_0_1_n_n_wf

class Facts : Prop extends Facts₀ where

variable [Facts]
-- ==== Proof.LibTypedRefs.lean ====
/- A general fact about typed references to host buffers. An operation of an inlined module-local function is stated at
   the tensor value's type and moved to its buffer's type, and back, by transport along the equation between the two
   types. Moving a value to the buffer's type and back gives the value: the two transports of ONE typed reference cancel,
   whatever the reference, the signature and the element values. A composed host value in which every result of an
   inlined operation is consumed by another inlined operation loses all its transports by rewriting with this one
   equation; what is left are the transports at buffers where an inlined operation meets an operation of the main
   function, each the identity at a literal reference (by rfl, one buffer at a time, over a variable value).
   Nothing here depends on a particular program. -/
import Idealize.ShloMosaic.Lib.StableHlo

namespace Cert.Lib.TypedRefs

open Idealize.ShloMosaic Idealize.ShloMosaic.StableHlo

/-- Moving a value to a typed reference's buffer type and back gives the value. -/
theorem ofBuf_toBuf {sig : RefSig} {Val : EltTy → Type} {T : BufTy} (x : TRef sig T) (v : T.Contents Val) :
    x.ofBuf (x.toBuf v) = v := by
  obtain ⟨r, h, _, _⟩ := x; subst h; rfl

/-- Moving a buffer's contents to the value's type and back gives the contents. -/
theorem toBuf_ofBuf {sig : RefSig} {Val : EltTy → Type} {T : BufTy} (x : TRef sig T) (v : x.ref.ty.Contents Val) :
    x.toBuf (x.ofBuf v) = v := by
  obtain ⟨r, h, _, _⟩ := x; subst h; rfl

end Cert.Lib.TypedRefs
-- ==== Proof.Spec.lean ====
/- The three row-wise maps of a two-layer graph convolution network with a small classifier, as functions on the
   extended reals, stated for ANY number of rows so that one definition describes both a block of rows and the whole
   node array.

   * `proj x w`: the rank-one product of a column `x` of node features with a row `w` of weights.
   * `normProj a b g be rm rv w`: add the bias `b`, normalize with the running mean `rm` and variance `rv`
     (plus the stabilizer), scale by `g`, shift by `be`, keep the positive part, and multiply by the matrix `w`.
   * `head`: `normProj` into 16 hidden units, bias, positive part, a second matrix product into 6 classes, bias,
     and the logarithm of the softmax of each row, computed with the row maximum subtracted first.

   Every map is local to a row: row `p` of the result reads only row `p` of the row-indexed argument. This is
   `*_rows`: re-indexing the rows of the argument by any map re-indexes the rows of the result by the same map. -/
import Idealize.ShloMosaic.PureOps.Ideal
import Idealize.ShloMosaic.Lib.ValueIdx

noncomputable section

open scoped BigOperators

open Idealize.ShloMosaic Idealize.ShloMosaic.ValueIdx

namespace Cert.GraphConv

/-- A matrix of extended reals with `r` rows and `c` columns. -/
abbrev Mat (r c : ℕ) := (⟨2, ![r, c]⟩ : Shape).Idx → EReal
/-- A vector of extended reals of length `n`. -/
abbrev Vect (n : ℕ) := (⟨1, ![n]⟩ : Shape).Idx → EReal

/-- The stabilizer added to the running variance: the single-precision value nearest to 1e-5. -/
abbrev stab : EReal := Ideal.ofBits .f32 0x3727C5AC#32
/-- The single-precision zero. -/
abbrev zero32 : EReal := Ideal.ofBits .f32 0x00000000#32
/-- The single-precision pattern of minus infinity. -/
abbrev negInf32 : EReal := Ideal.ofBits .f32 0xFF800000#32

variable {R R' : ℕ}

/-- Re-index the rows of a matrix. -/
def rows {c : ℕ} (ρ : Fin R' → Fin R) (a : Mat R c) : Mat R' c := fun j => a (ix2 (ρ (j 0)) (j 1))

/-- The product of a column of features with a row of weights. -/
def proj (x : Mat R 1) (w : Mat 1 256) : Mat R 256 :=
  fun i => ∑ k : Fin 1, x (ix2 (i 0) k) * w (ix2 k (i 1))

/-- One entry through bias, normalization with running statistics, scale, shift and positive part. -/
def normRelu (a b g be rm rv : EReal) : EReal :=
  max ((a + b - rm) * Ideal.rsqrt (rv + stab) * g + be) zero32

/-- Normalize every entry of a row and multiply the row by a matrix. -/
def normProj {D E : ℕ} (a : Mat R D) (b g be rm rv : Vect D) (w : Mat D E) : Mat R E :=
  fun i => ∑ k : Fin D, normRelu (a (ix2 (i 0) k)) (b (ix1 k)) (g (ix1 k)) (be (ix1 k)) (rm (ix1 k)) (rv (ix1 k)) * w (ix2 k (i 1))

/-- The hidden layer of the classifier: bias and positive part after `normProj`. -/
def hidden (a : Mat R 64) (b g be rm rv : Vect 64) (w1 : Mat 64 16) (b1 : Vect 16) : Mat R 16 :=
  fun i => max (normProj a b g be rm rv w1 i + b1 (ix1 (i 1))) zero32

/-- The class scores: a matrix product of the hidden layer and a bias. -/
def logits (h : Mat R 16) (w2 : Mat 16 6) (b2 : Vect 6) : Mat R 6 :=
  fun i => (∑ k : Fin 16, h (ix2 (i 0) k) * w2 (ix2 k (i 1))) + b2 (ix1 (i 1))

/-- The maximum of a row of scores (taken from minus infinity). -/
def rowMax (z : Mat R 6) (p : Fin R) : EReal :=
  max negInf32 ((Finset.univ : Finset (Fin 6)).fold max ⊥ (fun k => z (ix2 p k)))

/-- The logarithm of the softmax of each row: the shifted score minus the logarithm of the sum of the exponentials of
    the shifted scores. -/
def logSoftmax (z : Mat R 6) : Mat R 6 :=
  fun i => (z i - rowMax z (i 0)) - Ideal.log (∑ k : Fin 6, Ideal.exp (z (ix2 (i 0) k) - rowMax z (i 0)))

/-- The classifier on top of the second convolution. -/
def head (a : Mat R 64) (b g be rm rv : Vect 64) (w1 : Mat 64 16) (b1 : Vect 16) (w2 : Mat 16 6) (b2 : Vect 6) : Mat R 6 :=
  logSoftmax (logits (hidden a b g be rm rv w1 b1) w2 b2)

/-! ## Every map is local to a row -/

theorem proj_rows (ρ : Fin R' → Fin R) (x : Mat R 1) (w : Mat 1 256) :
    proj (rows ρ x) w = rows ρ (proj x w) := rfl

theorem normProj_rows {D E : ℕ} (ρ : Fin R' → Fin R) (a : Mat R D) (b g be rm rv : Vect D) (w : Mat D E) :
    normProj (rows ρ a) b g be rm rv w = rows ρ (normProj a b g be rm rv w) := rfl

theorem head_rows (ρ : Fin R' → Fin R) (a : Mat R 64) (b g be rm rv : Vect 64) (w1 : Mat 64 16) (b1 : Vect 16)
    (w2 : Mat 16 6) (b2 : Vect 6) :
    head (rows ρ a) b g be rm rv w1 b1 w2 b2 = rows ρ (head a b g be rm rv w1 b1 w2 b2) := rfl

end Cert.GraphConv

end
-- ==== Proof.LibMaxFold.lean ====
/- General facts about maxima over a finite family of extended reals taken from the bottom, and about the two
   maximum-reductions that compute them: a vector maximum-reduction and a host maximum-reduction along one axis, each
   started from the pattern of -infinity. Nothing here depends on a particular program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MaxFold

/-- The f32 pattern of -infinity denotes the bottom of the extended reals. -/
theorem ofBits_neg_inf : Ideal.ofBits .f32 0xFF800000#32 = ⊥ := by
  simp [Ideal.ofBits, Ideal.ieee]

/-- The maximum of a finite family taken from the bottom lies below an extended real iff every member does: the
    maximum by its universal property, with no order of folding in it. -/
theorem fold_max_univ_le {ι : Type} [Fintype ι] (f : ι → EReal) (x : EReal) :
    (Finset.univ : Finset ι).fold max ⊥ f ≤ x ↔ ∀ k, f k ≤ x := by
  rw [Finset.fold_max_le]
  simp

/-- A vector maximum-reduction along ONE axis from the pattern of -infinity, read on the extended reals at a reduced
    index `j`: the maximum, from the bottom, over that axis's coordinates of the source at `j` with the coordinate
    inserted. The hypotheses are typed as a printed body's proof arguments are. -/
theorem maxRed_apply {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j
      = (Finset.univ : Finset (Fin (s.size a))).fold max ⊥ (src ∘ h.lift j) := by
  rw [Ideal.multiReduction_maximumf_single]
  show Finset.fold max (Ideal.ofBits .f32 0xFF800000#32) _ _ = _
  rw [ofBits_neg_inf]

/-- The host's one-operand reduction with a maximum body along ONE axis from the constant -infinity, read on the
    extended reals at a reduced index `j`: the same maximum. -/
theorem hostMaxRed_apply {s t u : Shape} {a : Fin s.rank} (x : FVec Ideal s .f32) (h' : s.ReducesTo [a] t) (h : s.Reduces [a] t)
    (hu : 0 < u.numel) (j : t.Idx) :
    Host.reduce FloatOps.maximumf x (constant (F := Ideal) u .f32 0xFF800000#32) h' hu j
      = (Finset.univ : Finset (Fin (s.size a))).fold max ⊥ (x ∘ h.lift j) := by
  rw [Host.reduce_eq_fold_single FloatOps.maximumf x _ h' h hu]
  show Finset.fold max (Ideal.ofBits .f32 0xFF800000#32) _ _ = _
  rw [ofBits_neg_inf]

end Cert.Lib.MaxFold

end
-- ==== Proof.RefStages.lean ====
/- Three stretches of the reference program's host operations are the specification's row-wise maps on all 50000 rows,
   on the extended reals: the rank-one feature projection, the normalization followed by the first matrix product,
   and the classifier with the logarithm of the softmax. The two aggregated-message arrays stay opaque. -/
import proofs.«117283_j10685878633098_2_alg».proof.Proof.RefRead
import proofs.«117283_j10685878633098_2_alg».proof.Proof.Spec
import proofs.«117283_j10685878633098_2_alg».proof.Proof.LibMaxFold
import Idealize.ShloMosaic.Lib.ValueIdx
import Idealize.ShloMosaic.Lib.Pipeline.Value
import Idealize.ShloMosaic.PureOps.Ideal.Laws

noncomputable section

open scoped BigOperators

open Idealize.ShloMosaic Idealize.ShloMosaic.ValueIdx Cert.ReferenceIdeal Cert.ReferenceIdeal.ReadP

namespace Cert.GraphConv.Ref

/-- Two rank-2 indices with equal coordinates are equal. -/
local macro "idx2_eq" : tactic =>
  `(tactic| exact funext fun a => Fin.ext (by match a with | ⟨0, _⟩ => rfl | ⟨1, _⟩ => rfl))
/-- Two rank-1 indices with equal coordinates are equal. -/
local macro "idx1_eq" : tactic =>
  `(tactic| exact funext fun a => Fin.ext (by match a with | ⟨0, _⟩ => rfl))

/-- The first product of the reference is the rank-one projection of the specification. -/
theorem proj_ref (x0 : (⟨S50000x1, .f32⟩ : BufTy).Contents (Elt Ideal)) (x1 : (⟨S1x256, .f32⟩ : BufTy).Contents (Elt Ideal)) :
    val_main_v4 (F := Ideal) x0 x1 = Cert.GraphConv.proj (R := 50000) x0 x1 := by
  funext i
  obtain ⟨p, q, rfl⟩ : ∃ (p : Fin 50000) (q : Fin 256), i = ix2 p q := ⟨i 0, i 1, eq_ix2 i⟩
  rw [val_main_v4_apply]
  show _ = ∑ k : Fin 1, x0 (ix2 p k) * x1 (ix2 k q)
  refine Finset.sum_congr rfl fun k _ => ?_
  have el : lidx_main_v4 (ix2 p q) k = ix2 p k := by idx2_eq
  have er : ridx_main_v4 (ix2 p q) k = ix2 k q := by idx2_eq
  rw [el, er]

/-- One entry of the reference's normalized, rectified array is the specification's entry map of the aggregated
    messages' entry. -/
theorem normRelu_ref (x0 : (⟨S50000x1, .f32⟩ : BufTy).Contents (Elt Ideal)) (x1 : (⟨S1x256, .f32⟩ : BufTy).Contents (Elt Ideal))
    (x2 x3 x4 x5 x6 : (⟨S256, .f32⟩ : BufTy).Contents (Elt Ideal)) (x17 : (⟨S2x800000, .i32⟩ : BufTy).Contents (Elt Ideal))
    (p : Fin 50000) (k : Fin 256) :
    val_main_v62 (F := Ideal) x0 x1 x2 x3 x4 x5 x6 x17 (ix2 p k)
      = Cert.GraphConv.normRelu (val_main_v43 (F := Ideal) x0 x1 x17 (ix2 p k)) (x2 (ix1 k)) (x3 (ix1 k)) (x4 (ix1 k))
          (x5 (ix1 k)) (x6 (ix1 k)) := by
  rw [val_main_v62_apply, val_main_v61_apply, val_main_v58_apply, val_main_v55_apply, val_main_v49_apply,
    val_main_v46_apply, val_main_v45_apply, val_main_v44_apply, val_main_v48_apply, val_main_v47_apply,
    val_main_v54_apply, val_main_v53_apply, val_main_v52_apply, val_main_v51_apply, val_main_v50_apply,
    val_main_cst_9_apply, val_main_v57_apply, val_main_v56_apply, val_main_v60_apply, val_main_v59_apply,
    val_main_call1_v0_apply, val_main_call1_cst_apply]
  generalize val_main_v43 (F := Ideal) x0 x1 x17 = A
  have e2 : idx_main_v44 (idx_main_v45 (ix2 p k)) = ix1 k := by idx1_eq
  have e5 : idx_main_v47 (idx_main_v48 (ix2 p k)) = ix1 k := by idx1_eq
  have e6 : idx_main_v53 (idx_main_v54 (ix2 p k)) = ix1 k := by idx1_eq
  have e3 : idx_main_v56 (idx_main_v57 (ix2 p k)) = ix1 k := by idx1_eq
  have e4 : idx_main_v59 (idx_main_v60 (ix2 p k)) = ix1 k := by idx1_eq
  rw [e2, e5, e6, e3, e4]
  rfl

/-- The reference's first normalization and matrix product are the specification's, on the aggregated messages. -/
theorem normProj_ref (x0 : (⟨S50000x1, .f32⟩ : BufTy).Contents (Elt Ideal)) (x1 : (⟨S1x256, .f32⟩ : BufTy).Contents (Elt Ideal))
    (x2 x3 x4 x5 x6 : (⟨S256, .f32⟩ : BufTy).Contents (Elt Ideal)) (x7 : (⟨S256x64, .f32⟩ : BufTy).Contents (Elt Ideal))
    (x17 : (⟨S2x800000, .i32⟩ : BufTy).Contents (Elt Ideal)) :
    val_main_v63 (F := Ideal) x0 x1 x2 x3 x4 x5 x6 x7 x17
      = Cert.GraphConv.normProj (R := 50000) (val_main_v43 (F := Ideal) x0 x1 x17) x2 x3 x4 x5 x6 x7 := by
  funext i
  obtain ⟨p, q, rfl⟩ : ∃ (p : Fin 50000) (q : Fin 64), i = ix2 p q := ⟨i 0, i 1, eq_ix2 i⟩
  rw [val_main_v63_apply]
  show _ = ∑ k : Fin 256, Cert.GraphConv.normRelu (val_main_v43 (F := Ideal) x0 x1 x17 (ix2 p k)) (x2 (ix1 k)) (x3 (ix1 k)) (x4 (ix1 k)) (x5 (ix1 k)) (x6 (ix1 k)) * x7 (ix2 k q)
  refine Finset.sum_congr rfl fun k _ => ?_
  have el : lidx_main_v63 (ix2 p q) k = ix2 p k := by idx2_eq
  have er : ridx_main_v63 (ix2 p q) k = ix2 k q := by idx2_eq
  rw [el, er, normRelu_ref]

/-- One entry of the reference's second normalized, rectified array is the specification's entry map of the second
    aggregated messages' entry. -/
theorem normRelu2_ref (x0 : (⟨S50000x1, .f32⟩ : BufTy).Contents (Elt Ideal)) (x1 : (⟨S1x256, .f32⟩ : BufTy).Contents (Elt Ideal)) (x2 x3 x4 x5 x6 : (⟨S256, .f32⟩ : BufTy).Contents (Elt Ideal)) (x7 : (⟨S256x64, .f32⟩ : BufTy).Contents (Elt Ideal)) (x8 x9 x10 x11 x12 : (⟨S64, .f32⟩ : BufTy).Contents (Elt Ideal)) (x17 : (⟨S2x800000, .i32⟩ : BufTy).Contents (Elt Ideal))
    (p : Fin 50000) (k : Fin 64) :
    val_main_v121 (F := Ideal) x0 x1 x2 x3 x4 x5 x6 x7 x8 x9 x10 x11 x12 x17 (ix2 p k)
      = Cert.GraphConv.normRelu (val_main_v102 (F := Ideal) x0 x1 x2 x3 x4 x5 x6 x7 x17 (ix2 p k)) (x8 (ix1 k)) (x9 (ix1 k)) (x10 (ix1 k)) (x11 (ix1 k)) (x12 (ix1 k)) := by
  rw [val_main_v121_apply, val_main_v120_apply, val_main_v117_apply, val_main_v114_apply, val_main_v108_apply,
    val_main_v105_apply, val_main_v104_apply, val_main_v103_apply, val_main_v107_apply, val_main_v106_apply,
    val_main_v113_apply, val_main_v112_apply, val_main_v111_apply, val_main_v110_apply, val_main_v109_apply,
    val_main_cst_21_apply, val_main_v116_apply, val_main_v115_apply, val_main_v119_apply, val_main_v118_apply,
    val_main_call3_v0_apply, val_main_call3_cst_apply]
  generalize val_main_v102 (F := Ideal) x0 x1 x2 x3 x4 x5 x6 x7 x17 = A
  have e8 : idx_main_v103 (idx_main_v104 (ix2 p k)) = ix1 k := by idx1_eq
  have e11 : idx_main_v106 (idx_main_v107 (ix2 p k)) = ix1 k := by idx1_eq
  have e12 : idx_main_v112 (idx_main_v113 (ix2 p k)) = ix1 k := by idx1_eq
  have e9 : idx_main_v115 (idx_main_v116 (ix2 p k)) = ix1 k := by idx1_eq
  have e10 : idx_main_v118 (idx_main_v119 (ix2 p k)) = ix1 k := by idx1_eq
  rw [e8, e11, e12, e9, e10]
  rfl

/-- The reference's hidden layer of the classifier is the specification's. -/
theorem hidden_ref (x0 : (⟨S50000x1, .f32⟩ : BufTy).Contents (Elt Ideal)) (x1 : (⟨S1x256, .f32⟩ : BufTy).Contents (Elt Ideal)) (x2 x3 x4 x5 x6 : (⟨S256, .f32⟩ : BufTy).Contents (Elt Ideal)) (x7 : (⟨S256x64, .f32⟩ : BufTy).Contents (Elt Ideal)) (x8 x9 x10 x11 x12 : (⟨S64, .f32⟩ : BufTy).Contents (Elt Ideal)) (x13 : (⟨S64x16, .f32⟩ : BufTy).Contents (Elt Ideal)) (x14 : (⟨S16, .f32⟩ : BufTy).Contents (Elt Ideal)) (x17 : (⟨S2x800000, .i32⟩ : BufTy).Contents (Elt Ideal)) :
    val_main_v126 (F := Ideal) x0 x1 x2 x3 x4 x5 x6 x7 x8 x9 x10 x11 x12 x13 x14 x17 = Cert.GraphConv.hidden (R := 50000) (val_main_v102 (F := Ideal) x0 x1 x2 x3 x4 x5 x6 x7 x17) x8 x9 x10 x11 x12 x13 x14 := by
  funext i
  obtain ⟨p, q, rfl⟩ : ∃ (p : Fin 50000) (q : Fin 16), i = ix2 p q := ⟨i 0, i 1, eq_ix2 i⟩
  have e14 : idx_main_v123 (idx_main_v124 (ix2 p q)) = ix1 q := by idx1_eq
  rw [val_main_v126_apply, val_main_v125_apply, val_main_v122_apply, val_main_v124_apply, val_main_v123_apply,
    val_main_call4_v0_apply, val_main_call4_cst_apply, e14]
  show max ((∑ k : Fin 64, _) + x14 (ix1 q)) zero32
    = max ((∑ k : Fin 64, Cert.GraphConv.normRelu (val_main_v102 (F := Ideal) x0 x1 x2 x3 x4 x5 x6 x7 x17 (ix2 p k)) (x8 (ix1 k)) (x9 (ix1 k)) (x10 (ix1 k)) (x11 (ix1 k)) (x12 (ix1 k)) * x13 (ix2 k q)) + x14 (ix1 q)) zero32
  refine congrArg (fun s => max (s + x14 (ix1 q)) zero32) (Finset.sum_congr rfl fun k _ => ?_)
  have el : lidx_main_v122 (ix2 p q) k = ix2 p k := by idx2_eq
  have er : ridx_main_v122 (ix2 p q) k = ix2 k q := by idx2_eq
  rw [el, er, normRelu2_ref]

/-- The reference's class scores are the specification's, of the specification's hidden layer. -/
theorem logits_ref (x0 : (⟨S50000x1, .f32⟩ : BufTy).Contents (Elt Ideal)) (x1 : (⟨S1x256, .f32⟩ : BufTy).Contents (Elt Ideal)) (x2 x3 x4 x5 x6 : (⟨S256, .f32⟩ : BufTy).Contents (Elt Ideal)) (x7 : (⟨S256x64, .f32⟩ : BufTy).Contents (Elt Ideal)) (x8 x9 x10 x11 x12 : (⟨S64, .f32⟩ : BufTy).Contents (Elt Ideal)) (x13 : (⟨S64x16, .f32⟩ : BufTy).Contents (Elt Ideal)) (x14 : (⟨S16, .f32⟩ : BufTy).Contents (Elt Ideal)) (x15 : (⟨S16x6, .f32⟩ : BufTy).Contents (Elt Ideal)) (x16 : (⟨S6, .f32⟩ : BufTy).Contents (Elt Ideal)) (x17 : (⟨S2x800000, .i32⟩ : BufTy).Contents (Elt Ideal)) :
    val_main_v130 (F := Ideal) x0 x1 x2 x3 x4 x5 x6 x7 x8 x9 x10 x11 x12 x13 x14 x15 x16 x17 = Cert.GraphConv.logits (R := 50000) (Cert.GraphConv.hidden (R := 50000) (val_main_v102 (F := Ideal) x0 x1 x2 x3 x4 x5 x6 x7 x17) x8 x9 x10 x11 x12 x13 x14) x15 x16 := by
  funext i
  obtain ⟨p, q, rfl⟩ : ∃ (p : Fin 50000) (q : Fin 6), i = ix2 p q := ⟨i 0, i 1, eq_ix2 i⟩
  have e16 : idx_main_v128 (idx_main_v129 (ix2 p q)) = ix1 q := by idx1_eq
  rw [val_main_v130_apply, val_main_v127_apply, val_main_v129_apply, val_main_v128_apply, hidden_ref, e16]
  generalize Cert.GraphConv.hidden (R := 50000) (val_main_v102 (F := Ideal) x0 x1 x2 x3 x4 x5 x6 x7 x17) x8 x9 x10 x11 x12 x13 x14 = h
  show (∑ k : Fin 16, _) + x16 (ix1 q) = (∑ k : Fin 16, h (ix2 p k) * x15 (ix2 k q)) + x16 (ix1 q)
  refine congrArg (· + x16 (ix1 q)) (Finset.sum_congr rfl fun k _ => ?_)
  have el : lidx_main_v127 (ix2 p q) k = ix2 p k := by idx2_eq
  have er : ridx_main_v127 (ix2 p q) k = ix2 k q := by idx2_eq
  rw [el, er]

/-- A host maximum-reduction of a score array along its rows from minus infinity, joined with minus infinity, is the
    specification's row maximum. -/
theorem rowMax_aux (z : (⟨S50000x6, .f32⟩ : BufTy).Contents (Elt Ideal)) (h' : S50000x6.ReducesTo [1] S50000) (hu : 0 < S_.numel)
    (p : Fin 50000) :
    FloatOps.maximumf (FloatOps.ofBits (F := Ideal) .f32 0xFF800000#32)
        (Host.reduce FloatOps.maximumf z (constant (F := Ideal) S_ .f32 0xFF800000#32) h' hu (ix1 p))
      = Cert.GraphConv.rowMax z p := by
  rw [Cert.Lib.MaxFold.hostMaxRed_apply z h' (by decide) hu (ix1 p)]
  unfold Cert.GraphConv.rowMax
  refine congrArg (max negInf32) (congrArg (fun f => Finset.fold max ⊥ f Finset.univ) (funext fun k => congrArg z ?_))
  idx2_eq

/-- The shifted score minus the logarithm of the float sum, from the zero word, of the exponentials of the shifted
    scores is the specification's logarithm of the softmax. -/
theorem logSoftmax_aux (z : Mat 50000 6) (p : Fin 50000) (q : Fin 6) :
    FloatOps.subf (F := Ideal) (φ := .f32) (z (ix2 p q) - Cert.GraphConv.rowMax z p)
        (FloatOps.hostUnary .log (FloatOps.ofBits .f32 0x00000000#32 + ∑ k : Fin 6, Ideal.exp (z (ix2 p k) - Cert.GraphConv.rowMax z p)))
      = Cert.GraphConv.logSoftmax z (ix2 p q) := by
  show (z (ix2 p q) - Cert.GraphConv.rowMax z p)
      - Ideal.log (Ideal.ofBits .f32 0x00000000#32 + ∑ k : Fin 6, Ideal.exp (z (ix2 p k) - Cert.GraphConv.rowMax z p))
    = (z (ix2 p q) - Cert.GraphConv.rowMax z p) - Ideal.log (∑ k : Fin 6, Ideal.exp (z (ix2 p k) - Cert.GraphConv.rowMax z p))
  rw [Ideal.ofBits_zero_f32, zero_add]

/-- The reference's row maximum, taken from minus infinity, is the specification's. -/
theorem rowMax_ref (x0 : (⟨S50000x1, .f32⟩ : BufTy).Contents (Elt Ideal)) (x1 : (⟨S1x256, .f32⟩ : BufTy).Contents (Elt Ideal)) (x2 x3 x4 x5 x6 : (⟨S256, .f32⟩ : BufTy).Contents (Elt Ideal)) (x7 : (⟨S256x64, .f32⟩ : BufTy).Contents (Elt Ideal)) (x8 x9 x10 x11 x12 : (⟨S64, .f32⟩ : BufTy).Contents (Elt Ideal)) (x13 : (⟨S64x16, .f32⟩ : BufTy).Contents (Elt Ideal)) (x14 : (⟨S16, .f32⟩ : BufTy).Contents (Elt Ideal)) (x15 : (⟨S16x6, .f32⟩ : BufTy).Contents (Elt Ideal)) (x16 : (⟨S6, .f32⟩ : BufTy).Contents (Elt Ideal)) (x17 : (⟨S2x800000, .i32⟩ : BufTy).Contents (Elt Ideal)) (p : Fin 50000) :
    val_main_call5_v2 (F := Ideal) x0 x1 x2 x3 x4 x5 x6 x7 x8 x9 x10 x11 x12 x13 x14 x15 x16 x17 (ix1 p) = Cert.GraphConv.rowMax (val_main_v130 (F := Ideal) x0 x1 x2 x3 x4 x5 x6 x7 x8 x9 x10 x11 x12 x13 x14 x15 x16 x17) p := by
  rw [val_main_call5_v2_apply, val_main_call5_v1_apply, val_main_call5_cst_0_apply]
  exact rowMax_aux (val_main_v130 (F := Ideal) x0 x1 x2 x3 x4 x5 x6 x7 x8 x9 x10 x11 x12 x13 x14 x15 x16 x17) _ _ p

/-- A score of the reference with its row maximum subtracted. -/
theorem shift_ref (x0 : (⟨S50000x1, .f32⟩ : BufTy).Contents (Elt Ideal)) (x1 : (⟨S1x256, .f32⟩ : BufTy).Contents (Elt Ideal)) (x2 x3 x4 x5 x6 : (⟨S256, .f32⟩ : BufTy).Contents (Elt Ideal)) (x7 : (⟨S256x64, .f32⟩ : BufTy).Contents (Elt Ideal)) (x8 x9 x10 x11 x12 : (⟨S64, .f32⟩ : BufTy).Contents (Elt Ideal)) (x13 : (⟨S64x16, .f32⟩ : BufTy).Contents (Elt Ideal)) (x14 : (⟨S16, .f32⟩ : BufTy).Contents (Elt Ideal)) (x15 : (⟨S16x6, .f32⟩ : BufTy).Contents (Elt Ideal)) (x16 : (⟨S6, .f32⟩ : BufTy).Contents (Elt Ideal)) (x17 : (⟨S2x800000, .i32⟩ : BufTy).Contents (Elt Ideal)) (p : Fin 50000) (k : Fin 6) :
    val_main_call5_v5 (F := Ideal) x0 x1 x2 x3 x4 x5 x6 x7 x8 x9 x10 x11 x12 x13 x14 x15 x16 x17 (ix2 p k)
      = val_main_v130 (F := Ideal) x0 x1 x2 x3 x4 x5 x6 x7 x8 x9 x10 x11 x12 x13 x14 x15 x16 x17 (ix2 p k) - Cert.GraphConv.rowMax (val_main_v130 (F := Ideal) x0 x1 x2 x3 x4 x5 x6 x7 x8 x9 x10 x11 x12 x13 x14 x15 x16 x17) p := by
  have e : idx_main_call5_v3 (idx_main_call5_v4 (ix2 p k)) = ix1 p := by idx1_eq
  rw [val_main_call5_v5_apply, val_main_call5_v4_apply, val_main_call5_v3_apply, e, rowMax_ref]
  rfl

/-- The reference's outlined logarithm of the softmax is the specification's, of the reference's scores. -/
theorem logSoftmax_ref (x0 : (⟨S50000x1, .f32⟩ : BufTy).Contents (Elt Ideal)) (x1 : (⟨S1x256, .f32⟩ : BufTy).Contents (Elt Ideal)) (x2 x3 x4 x5 x6 : (⟨S256, .f32⟩ : BufTy).Contents (Elt Ideal)) (x7 : (⟨S256x64, .f32⟩ : BufTy).Contents (Elt Ideal)) (x8 x9 x10 x11 x12 : (⟨S64, .f32⟩ : BufTy).Contents (Elt Ideal)) (x13 : (⟨S64x16, .f32⟩ : BufTy).Contents (Elt Ideal)) (x14 : (⟨S16, .f32⟩ : BufTy).Contents (Elt Ideal)) (x15 : (⟨S16x6, .f32⟩ : BufTy).Contents (Elt Ideal)) (x16 : (⟨S6, .f32⟩ : BufTy).Contents (Elt Ideal)) (x17 : (⟨S2x800000, .i32⟩ : BufTy).Contents (Elt Ideal)) :
    val_main_v131 (F := Ideal) x0 x1 x2 x3 x4 x5 x6 x7 x8 x9 x10 x11 x12 x13 x14 x15 x16 x17 = Cert.GraphConv.logSoftmax (R := 50000) (val_main_v130 (F := Ideal) x0 x1 x2 x3 x4 x5 x6 x7 x8 x9 x10 x11 x12 x13 x14 x15 x16 x17) := by
  funext i
  obtain ⟨p, q, rfl⟩ : ∃ (p : Fin 50000) (q : Fin 6), i = ix2 p q := ⟨i 0, i 1, eq_ix2 i⟩
  have hs : (∑ k : Fin 6, val_main_call5_v6 (F := Ideal) x0 x1 x2 x3 x4 x5 x6 x7 x8 x9 x10 x11 x12 x13 x14 x15 x16 x17
        (idx_main_call5_v7 (idx_main_call5_v8 (idx_main_call5_v10 (ix2 p q))) k))
      = ∑ k : Fin 6, Ideal.exp (val_main_v130 (F := Ideal) x0 x1 x2 x3 x4 x5 x6 x7 x8 x9 x10 x11 x12 x13 x14 x15 x16 x17 (ix2 p k) - Cert.GraphConv.rowMax (val_main_v130 (F := Ideal) x0 x1 x2 x3 x4 x5 x6 x7 x8 x9 x10 x11 x12 x13 x14 x15 x16 x17) p) := by
    refine Finset.sum_congr rfl fun k _ => ?_
    have e7 : idx_main_call5_v7 (idx_main_call5_v8 (idx_main_call5_v10 (ix2 p q))) k = ix2 p k := by idx2_eq
    rw [e7, val_main_call5_v6_apply, shift_ref]
    exact Ideal.hostUnary_exp_def _
  rw [val_main_v131_apply, val_main_call5_v10_apply, val_main_call5_v9_apply, val_main_call5_v8_apply,
    val_main_call5_v7_apply, val_main_call5_cst_1_apply, shift_ref, hs]
  exact logSoftmax_aux (val_main_v130 (F := Ideal) x0 x1 x2 x3 x4 x5 x6 x7 x8 x9 x10 x11 x12 x13 x14 x15 x16 x17) p q

/-- The reference's classifier, from the second aggregated messages to the logarithm of the softmax, is the
    specification's. -/
theorem head_ref (x0 : (⟨S50000x1, .f32⟩ : BufTy).Contents (Elt Ideal)) (x1 : (⟨S1x256, .f32⟩ : BufTy).Contents (Elt Ideal)) (x2 x3 x4 x5 x6 : (⟨S256, .f32⟩ : BufTy).Contents (Elt Ideal)) (x7 : (⟨S256x64, .f32⟩ : BufTy).Contents (Elt Ideal)) (x8 x9 x10 x11 x12 : (⟨S64, .f32⟩ : BufTy).Contents (Elt Ideal)) (x13 : (⟨S64x16, .f32⟩ : BufTy).Contents (Elt Ideal)) (x14 : (⟨S16, .f32⟩ : BufTy).Contents (Elt Ideal)) (x15 : (⟨S16x6, .f32⟩ : BufTy).Contents (Elt Ideal)) (x16 : (⟨S6, .f32⟩ : BufTy).Contents (Elt Ideal)) (x17 : (⟨S2x800000, .i32⟩ : BufTy).Contents (Elt Ideal)) :
    val_main_v131 (F := Ideal) x0 x1 x2 x3 x4 x5 x6 x7 x8 x9 x10 x11 x12 x13 x14 x15 x16 x17
      = Cert.GraphConv.head (R := 50000) (val_main_v102 (F := Ideal) x0 x1 x2 x3 x4 x5 x6 x7 x17) x8 x9 x10 x11 x12 x13 x14 x15 x16 := by
  rw [logSoftmax_ref, logits_ref]
  rfl

end Cert.GraphConv.Ref

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibRowCast.lean ====
/- A vector laid out as a one-row matrix, read at coordinates, for any extent and any element type: a vector `[b]` cast to
   `[1, b]` reads, at `(z, c)`, the vector's entry `c` — both sit at row-major position `c`. Nothing here depends on a
   particular program; it is the companion of the `[1, b] → [b]` cast read. -/
import Idealize.ShloMosaic.Lib.Pipeline.Value
import Idealize.ShloMosaic.Lib.ValueIdx

noncomputable section

open Idealize.ShloMosaic Idealize.ShloMosaic.ValueIdx

namespace Cert.Lib.RowCast

/-- A vector `[b]` cast to a row `[1, b]` reads, at `(z, c)`, the vector at `c`. -/
theorem shapeCast_b_1b_apply {α : Type} {b : ℕ} (v : (⟨1, ![b]⟩ : Shape).Idx → α) (h : (⟨1, ![b]⟩ : Shape).ShapeCasts ⟨2, ![1, b]⟩)
    (z : Fin 1) (c : Fin b) : shapeCast ⟨2, ![1, b]⟩ v h (ix2 z c) = v (ix1 c) := by
  refine shapeCast_apply v h (ix2 z c) (ix1 c) ?_
  rw [Shape.rowMajor_val_one, Shape.rowMajor_val_two]
  show c.val = z.val * b + c.val
  have := z.isLt
  have hz : z.val = 0 := by omega
  rw [hz, Nat.zero_mul, Nat.zero_add]

end Cert.Lib.RowCast

end
-- ==== Proof.Bodies.lean ====
/- The arithmetic of the three kernel bodies, each read on the extended reals as the specification's function on a
   block of 5000 rows: the rank-one product, the normalization followed by a matrix product, and the classifier with
   the logarithm of the softmax of each row. Each body is one pure term; it is read index by index, the pointwise
   operations by definition and every layout operation, contraction and reduction by one small read lemma. -/
import proofs.«117283_j10685878633098_2_alg».proof.Proof.Gen.KernelIdeal.Skeleton
import proofs.«117283_j10685878633098_2_alg».proof.Proof.Spec
import proofs.«117283_j10685878633098_2_alg».proof.Proof.LibPlainMatmul
import proofs.«117283_j10685878633098_2_alg».proof.Proof.LibBroadcastReads
import proofs.«117283_j10685878633098_2_alg».proof.Proof.LibMaxFold
import proofs.«117283_j10685878633098_2_alg».proof.Proof.LibRowCast
import Idealize.ShloMosaic.Lib.ValueIdx
import Idealize.ShloMosaic.Lib.Pipeline.Value
import Idealize.ShloMosaic.Lib.ValueLayout
import Idealize.ShloMosaic.PureOps.Ideal.Laws

noncomputable section

open scoped BigOperators

open Idealize.ShloMosaic Idealize.ShloMosaic.ValueIdx Cert.KernelIdeal

namespace Cert.GraphConv.Bodies

/-- The first body: the product of the column of features with the row of weights, a contraction over one
    coordinate. -/
theorem proj_body (v0 : FVec Ideal S5000x1 .f32) (v2 : FVec Ideal S1x256 .f32) :
    Cert.KernelIdeal.Gen.k0_pay1 (F := Ideal) v0 v2 = Cert.GraphConv.proj (R := 5000) v0 v2 := by
  funext j
  obtain ⟨p, q, rfl⟩ : ∃ (p : Fin 5000) (q : Fin 256), j = ix2 p q := ⟨j 0, j 1, eq_ix2 j⟩
  unfold Cert.KernelIdeal.Gen.k0_pay1 Cert.GraphConv.proj
  exact Cert.Lib.PlainMatmul.plain_matmul_zero_apply (M := 5000) (K := 1) (N := 256)
    (truncf .bf16 v0 Gen.bitsLt_bf16_f32) (truncf .bf16 v2 Gen.bitsLt_bf16_f32) p q

/-! ## Small reads -/

/-- A vector `[a]` cast to a column `[a, 1]` reads, at `(p, z)`, the vector at `p`: both sit at row-major position
    `p`. -/
theorem shapeCast_a_a1_apply {α : Type} {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- One entry of a block through bias, normalization with the running statistics, scale, shift and positive part, as
    the bodies compute it: the row block with each per-column vector laid out as a row and broadcast down the rows,
    read at `(p, k)`, is the specification's entry function at the block's entry and the vectors' entries `k`. -/
theorem normRelu_read {A D : ℕ} (a : FVec Ideal ⟨2, ![A, D]⟩ .f32) (b rm rv g be : FVec Ideal ⟨1, ![D]⟩ .f32)
    (hs : (⟨2, ![A, D]⟩ : Shape).ShapeCasts ⟨2, ![A, D]⟩)
    (hc : (⟨1, ![D]⟩ : Shape).ShapeCasts ⟨2, ![1, D]⟩) (hb : (⟨2, ![1, D]⟩ : Shape).Broadcasts ⟨2, ![A, D]⟩)
    (p : Fin A) (k : Fin D) :
    maximumf (addf (mulf (mulf (subf (addf (shapeCast ⟨2, ![A, D]⟩ a hs)
                (broadcastTo ⟨2, ![A, D]⟩ (shapeCast ⟨2, ![1, D]⟩ b hc) hb))
              (broadcastTo ⟨2, ![A, D]⟩ (shapeCast ⟨2, ![1, D]⟩ rm hc) hb))
            (broadcastTo ⟨2, ![A, D]⟩ (rsqrt (addf (shapeCast ⟨2, ![1, D]⟩ rv hc)
              (broadcast ⟨2, ![1, D]⟩ (Scalar.ofBits (F := Ideal) .f32 0x3727C5AC#32)))) hb))
          (broadcastTo ⟨2, ![A, D]⟩ (shapeCast ⟨2, ![1, D]⟩ g hc) hb))
        (broadcastTo ⟨2, ![A, D]⟩ (shapeCast ⟨2, ![1, D]⟩ be hc) hb))
      (broadcast ⟨2, ![A, D]⟩ (Scalar.ofBits (F := Ideal) .f32 0x00000000#32)) (ix2 p k)
      = normRelu (a (ix2 p k)) (b (ix1 k)) (g (ix1 k)) (be (ix1 k)) (rm (ix1 k)) (rv (ix1 k)) := by
  rw [maximumf_apply, addf_apply, mulf_apply, mulf_apply, subf_apply, addf_apply, shapeCast_self,
    broadcastTo_1b_ab_apply, broadcastTo_1b_ab_apply, broadcastTo_1b_ab_apply, broadcastTo_1b_ab_apply,
    broadcastTo_1b_ab_apply, shapeCast_a_1a_apply, shapeCast_a_1a_apply, shapeCast_a_1a_apply, shapeCast_a_1a_apply]
  show max ((a (ix2 p k) + b (ix1 k) - rm (ix1 k)) *
      Ideal.rsqrt (shapeCast ⟨2, ![1, D]⟩ rv hc (ix2 (0 : Fin 1) k) + Ideal.ofBits .f32 0x3727C5AC#32) * g (ix1 k) + be (ix1 k))
      (Ideal.ofBits .f32 0x00000000#32) = _
  rw [shapeCast_a_1a_apply]
  rfl

/-- The second body: every entry of the row block normalized, then the block multiplied by the matrix. -/
theorem normProj_body (v0 : FVec Ideal S5000x256 .f32) (v2 v6 v10 v17 v21 : FVec Ideal S256 .f32)
    (v28 : FVec Ideal S256x64 .f32) :
    Cert.KernelIdeal.Gen.k1_pay1 (F := Ideal) v0 v2 v6 v10 v17 v21 v28
      = Cert.GraphConv.normProj (R := 5000) v0 v2 v17 v21 v6 v10 v28 := by
  funext j
  obtain ⟨p, q, rfl⟩ : ∃ (p : Fin 5000) (q : Fin 64), j = ix2 p q := ⟨j 0, j 1, eq_ix2 j⟩
  unfold Cert.KernelIdeal.Gen.k1_pay1 Cert.GraphConv.normProj
  refine (Cert.Lib.PlainMatmul.plain_matmul_zero_apply (M := 5000) (K := 256) (N := 64) _ _ p q).trans ?_
  refine Finset.sum_congr rfl fun k _ => ?_
  refine congrArg (· * v28 (ix2 k q)) ?_
  exact normRelu_read (A := 5000) (D := 256) v0 v2 v6 v10 v17 v21 Gen.shapeCasts_S5000x256_S5000x256
    Gen.shapeCasts_S256_S1x256 Gen.broadcasts_S1x256_S5000x256 p k

/-- The logarithm, the exponential, read at an index. -/
theorem log_apply {s : Shape} (x : FVec Ideal s .f32) (i : s.Idx) : log x i = Ideal.log (x i) := rfl
theorem exp_apply {s : Shape} (x : FVec Ideal s .f32) (i : s.Idx) : exp x i = Ideal.exp (x i) := rfl

/-- A matrix plus a per-column vector laid out as a row and broadcast down the rows, then the positive part, read
    at `(p, k)`. -/
theorem biasRelu_read {A E : ℕ} (m : FVec Ideal ⟨2, ![A, E]⟩ .f32) (b1 : FVec Ideal ⟨1, ![E]⟩ .f32)
    (hc : (⟨1, ![E]⟩ : Shape).ShapeCasts ⟨2, ![1, E]⟩) (hb : (⟨2, ![1, E]⟩ : Shape).Broadcasts ⟨2, ![A, E]⟩)
    (p : Fin A) (k : Fin E) :
    maximumf (addf m (broadcastTo ⟨2, ![A, E]⟩ (shapeCast ⟨2, ![1, E]⟩ b1 hc) hb))
      (broadcast ⟨2, ![A, E]⟩ (Scalar.ofBits (F := Ideal) .f32 0x00000000#32)) (ix2 p k)
      = max (m (ix2 p k) + b1 (ix1 k)) zero32 := by
  rw [maximumf_apply, addf_apply, broadcastTo_1b_ab_apply, shapeCast_a_1a_apply]
  rfl

/-- A matrix plus a per-column vector laid out as a row and broadcast down the rows, as a function of the index. -/
theorem addRow_eq {A E : ℕ} (m : FVec Ideal ⟨2, ![A, E]⟩ .f32) (b : FVec Ideal ⟨1, ![E]⟩ .f32)
    (hc : (⟨1, ![E]⟩ : Shape).ShapeCasts ⟨2, ![1, E]⟩) (hb : (⟨2, ![1, E]⟩ : Shape).Broadcasts ⟨2, ![A, E]⟩) :
    addf m (broadcastTo ⟨2, ![A, E]⟩ (shapeCast ⟨2, ![1, E]⟩ b hc) hb) = fun i => m i + b (ix1 (i 1)) := by
  funext i
  obtain ⟨p, k, rfl⟩ : ∃ (p : Fin A) (k : Fin E), i = ix2 p k := ⟨i 0, i 1, eq_ix2 i⟩
  rw [addf_apply, broadcastTo_1b_ab_apply, shapeCast_a_1a_apply]
  rfl

/-- A vector `[a]` laid out as a column and broadcast along the lanes reads, at `(p, c)`, the vector at `p`. -/
theorem colBroadcast_read {α : Type} {A B : ℕ} (v : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (p : Fin A) (c : Fin B) :
    broadcastTo ⟨2, ![A, B]⟩ (shapeCast ⟨2, ![A, 1]⟩ v hc) hb (ix2 p c) = v (ix1 p) :=
  (Cert.Lib.BroadcastReads.broadcastTo_a1_ab_apply _ hb p c).trans (shapeCast_a_a1_apply v hc p 0)

/-- The maximum of a row of six scores as the body takes it: the lane maximum-reduction from minus infinity, then the
    maximum with minus infinity once more. -/
theorem rowMax_read {A : ℕ} (z : FVec Ideal ⟨2, ![A, 6]⟩ .f32)
    (hr : (⟨2, ![A, 6]⟩ : Shape).Reduces [1] ⟨1, ![A]⟩) (hφ : FKind.Formats .f32)
    (hmax : (0xFF800000#32 : BitVec 32) = FKind.maximumf.neutral .f32 hφ) (p : Fin A) :
    maximumf (broadcast ⟨1, ![A]⟩ (Scalar.ofBits (F := Ideal) .f32 0xFF800000#32))
      (multiReduction .maximumf [1] ⟨1, ![A]⟩ z 0xFF800000#32 hr hφ hmax) (ix1 p) = rowMax z p := by
  rw [maximumf_apply, broadcast_apply, Cert.Lib.MaxFold.maxRed_apply]
  have e : (z ∘ hr.lift (ix1 p)) = fun k : Fin 6 => z (ix2 p k) :=
    funext fun k => congrArg z (funext fun a => Fin.ext (by
      match a with
      | ⟨0, _⟩ => rfl
      | ⟨1, _⟩ => rfl))
  exact congrArg (fun f : Fin 6 → EReal => max negInf32 (Finset.fold max ⊥ f Finset.univ)) e

/-- The logarithm of the softmax of a row as the body computes it: the row maximum subtracted, the exponentials
    summed along the row, the logarithm of the sum subtracted. -/
theorem logSoftmax_read {A : ℕ} (z : FVec Ideal ⟨2, ![A, 6]⟩ .f32)
    (hr : (⟨2, ![A, 6]⟩ : Shape).Reduces [1] ⟨1, ![A]⟩) (hφ : FKind.Formats .f32)
    (hmax : (0xFF800000#32 : BitVec 32) = FKind.maximumf.neutral .f32 hφ)
    (hadd : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, 6]⟩)
    (p : Fin A) (q : Fin 6) :
    subf (subf z (broadcastTo ⟨2, ![A, 6]⟩ (shapeCast ⟨2, ![A, 1]⟩
          (maximumf (broadcast ⟨1, ![A]⟩ (Scalar.ofBits (F := Ideal) .f32 0xFF800000#32))
            (multiReduction .maximumf [1] ⟨1, ![A]⟩ z 0xFF800000#32 hr hφ hmax)) hc) hb))
      (broadcastTo ⟨2, ![A, 6]⟩ (log (shapeCast ⟨2, ![A, 1]⟩
          (multiReduction .add [1] ⟨1, ![A]⟩
            (exp (subf z (broadcastTo ⟨2, ![A, 6]⟩ (shapeCast ⟨2, ![A, 1]⟩
              (maximumf (broadcast ⟨1, ![A]⟩ (Scalar.ofBits (F := Ideal) .f32 0xFF800000#32))
                (multiReduction .maximumf [1] ⟨1, ![A]⟩ z 0xFF800000#32 hr hφ hmax)) hc) hb)))
            0x00000000#32 hr hφ hadd) hc)) hb) (ix2 p q)
      = logSoftmax z (ix2 p q) := by
  have hsh : ∀ c : Fin 6, subf z (broadcastTo ⟨2, ![A, 6]⟩ (shapeCast ⟨2, ![A, 1]⟩
          (maximumf (broadcast ⟨1, ![A]⟩ (Scalar.ofBits (F := Ideal) .f32 0xFF800000#32))
            (multiReduction .maximumf [1] ⟨1, ![A]⟩ z 0xFF800000#32 hr hφ hmax)) hc) hb) (ix2 p c)
        = z (ix2 p c) - rowMax z p := fun c => by
    rw [subf_apply, colBroadcast_read, rowMax_read]
  rw [subf_apply, hsh, Cert.Lib.BroadcastReads.broadcastTo_a1_ab_apply, log_apply, shapeCast_a_a1_apply,
    Cert.Lib.PlainMatmul.rowSum_apply]
  show _ = (z (ix2 p q) - rowMax z p) - Ideal.log (∑ k : Fin 6, Ideal.exp (z (ix2 p k) - rowMax z p))
  refine congrArg (fun s => (z (ix2 p q) - rowMax z p) - Ideal.log s) ?_
  exact Finset.sum_congr rfl fun k _ => by rw [exp_apply, hsh]

/-- The scores before the class bias: the hidden layer (normalization, first matrix, bias, positive part) multiplied by
    the second matrix, read at `(p, q)`. -/
theorem k2_pay2_apply (v0 : FVec Ideal S5000x64 .f32) (v2 v6 v10 v17 v21 : FVec Ideal S64 .f32)
    (v28 : FVec Ideal S64x16 .f32) (v31 : FVec Ideal S16 .f32) (v38 : FVec Ideal S16x6 .f32)
    (p : Fin 5000) (q : Fin 6) :
    Cert.KernelIdeal.Gen.k2_pay2 (F := Ideal) v0 v2 v6 v10 v17 v21 v28 v31 v38 (ix2 p q)
      = ∑ k : Fin 16, hidden (R := 5000) v0 v2 v17 v21 v6 v10 v28 v31 (ix2 p k) * v38 (ix2 k q) := by
  unfold Cert.KernelIdeal.Gen.k2_pay2
  refine (Cert.Lib.PlainMatmul.plain_matmul_zero_apply (M := 5000) (K := 16) (N := 6) _ _ p q).trans ?_
  refine Finset.sum_congr rfl fun k _ => ?_
  refine congrArg (· * v38 (ix2 k q)) ?_
  refine (biasRelu_read (A := 5000) (E := 16) _ v31 Gen.shapeCasts_S16_S1x16 Gen.broadcasts_S1x16_S5000x16 p k).trans ?_
  refine congrArg (fun x => max (x + v31 (ix1 k)) zero32) ?_
  refine (Cert.Lib.PlainMatmul.plain_matmul_zero_apply (M := 5000) (K := 64) (N := 16) _ _ p k).trans ?_
  refine Finset.sum_congr rfl fun k' _ => ?_
  refine congrArg (· * v28 (ix2 k' k)) ?_
  exact normRelu_read (A := 5000) (D := 64) v0 v2 v6 v10 v17 v21 Gen.shapeCasts_S5000x64_S5000x64
    Gen.shapeCasts_S64_S1x64 Gen.broadcasts_S1x64_S5000x64 p k'

/-- The last stage: the class bias added to the scores, then the logarithm of the softmax of each row. -/
theorem k2_pay1_eq (v40 : FVec Ideal S5000x6 .f32) (v41 : FVec Ideal S6 .f32) :
    Cert.KernelIdeal.Gen.k2_pay1 (F := Ideal) v40 v41
      = logSoftmax (R := 5000) (fun i => v40 i + v41 (ix1 (i 1))) := by
  funext j
  obtain ⟨p, q, rfl⟩ : ∃ (p : Fin 5000) (q : Fin 6), j = ix2 p q := ⟨j 0, j 1, eq_ix2 j⟩
  unfold Cert.KernelIdeal.Gen.k2_pay1
  refine (logSoftmax_read (A := 5000) _ Gen.reduces_S5000x6_S5000 _ _ _ Gen.shapeCasts_S5000_S5000x1
    Gen.broadcasts_S5000x1_S5000x6 p q).trans ?_
  rw [addRow_eq]

/-- The third body: the classifier on a block of rows. -/
theorem head_body (v0 : FVec Ideal S5000x64 .f32) (v2 v6 v10 v17 v21 : FVec Ideal S64 .f32)
    (v28 : FVec Ideal S64x16 .f32) (v31 : FVec Ideal S16 .f32) (v38 : FVec Ideal S16x6 .f32)
    (v41 : FVec Ideal S6 .f32) :
    Cert.KernelIdeal.Gen.k2_pay1 (F := Ideal)
        (Cert.KernelIdeal.Gen.k2_pay2 (F := Ideal) v0 v2 v6 v10 v17 v21 v28 v31 v38) v41
      = Cert.GraphConv.head (R := 5000) v0 v2 v17 v21 v6 v10 v28 v31 v38 v41 := by
  refine (k2_pay1_eq _ v41).trans ?_
  unfold Cert.GraphConv.head
  refine congrArg (logSoftmax (R := 5000)) ?_
  funext i
  obtain ⟨p, q, rfl⟩ : ∃ (p : Fin 5000) (q : Fin 6), i = ix2 p q := ⟨i 0, i 1, eq_ix2 i⟩
  show Cert.KernelIdeal.Gen.k2_pay2 (F := Ideal) v0 v2 v6 v10 v17 v21 v28 v31 v38 (ix2 p q) + v41 (ix1 q) = _
  rw [k2_pay2_apply]
  rfl

end Cert.GraphConv.Bodies

end
-- ==== Proof.KernelRun.lean ====
/- The idealized kernel program's run with its result named.

   The program is three grid regions among stretches of host operations. Its buffer contents at the segment boundaries
   are a fold from the launch memory: a stretch of host operations applies them in order, a region replaces each of its
   windows' arrays by what the write-backs of its grid points leave. The last boundary's contents are `W8 m ρ c`; every
   weakly fair execution terminates, nothing faulting, with every unscoped buffer at those contents. Read at the result
   buffer this names the result; read at an argument it gives the launch contents back. -/
import proofs.«117283_j10685878633098_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v58) = W8 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c)⟩)

end Cert.KernelIdeal.RunValue

end
-- ==== Proof.Blocks0.lean ====
/- The first grid region: the product of the feature column with the weight row, block of rows by block of rows.

   The grid has ten points. At point `t` the feature window shows rows `5000 t … 5000 t + 4999` of the feature column, the
   weight window shows the whole weight row, and the result window shows the same rows of the result; every point writes
   its block back. The body's arithmetic on a block is `proj` on 5000 rows (a hypothesis here, proved with the bodies), and
   `proj` is local to a row, so what point `t` writes back is block `t` of `proj` of the whole arrays; the ten blocks
   cover the result, which therefore ends holding `proj` of the arrays the region found. -/
import proofs.«117283_j10685878633098_2_alg».proof.Proof.Gen.KernelIdeal.Frame
import proofs.«117283_j10685878633098_2_alg».proof.Proof.Spec
import Idealize.ShloMosaic.Lib.Pipeline.Value

set_option maxRecDepth 16384

noncomputable section

namespace Cert.KernelIdeal.Blocks0

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Which block each window shows at grid point `t`: the row-blocked windows block `t`, the weight window block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_ten (t : Fin cfg0.N) : t.val < 10 := lt_of_lt_of_eq t.isLt N_0

/-- The row of the whole array that row `p` of point `t`'s block is. -/
def rowAt (t : Fin cfg0.N) : Fin 5000 → Fin 50000 := fun p => ⟨t.val * 5000 + p.val, by have := lt_ten t; have := p.isLt; omega⟩

/-- The feature window's block at point `t` is the feature column's rows `rowAt t`. -/
theorem blk_x (c : Dev nD) (t : Fin cfg0.N) : iblk0 V c 0 t = rows (rowAt t) (V c main_arg0) := by
  funext y
  show V c main_arg0 (((cfg0.win 0).blk t).view.emb y) = V c main_arg0 (ix2 (rowAt t (y 0)) (y 1))
  obtain ⟨e0, e1, -⟩ := idx_facts t
  refine congrArg _ (funext fun a => Fin.ext ?_)
  match a with
  | ⟨0, _⟩ => show win0_0.index t (0 : Fin 2) * 5000 + 1 * (y 0).val = t.val * 5000 + (y 0).val; omega
  | ⟨1, _⟩ => show win0_0.index t (1 : Fin 2) * 1 + 1 * (y 1).val = (y 1).val; omega

/-- The weight window's block at every point is the whole weight row. -/
theorem blk_w (c : Dev nD) (t : Fin cfg0.N) : iblk0 V c 1 t = V c main_arg1 := by
  funext y
  show V c main_arg1 (((cfg0.win 1).blk t).view.emb y) = V c main_arg1 y
  obtain ⟨-, -, e2, e3, -⟩ := idx_facts t
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 256 + 1 * (y 1).val = (y 1).val; omega

/-- Where an index of the result window's block at point `t` sits in the result. -/
theorem emb_out (t : Fin cfg0.N) (j : (⟨2, ![5000, 256]⟩ : Shape).Idx) :
    ((cfg0.win 2).blk t).view.emb j = ix2 (rowAt t (j 0)) (j 1) := by
  obtain ⟨-, -, -, -, e4, e5⟩ := idx_facts t
  refine funext fun a => Fin.ext ?_
  match a with
  | ⟨0, _⟩ => show win0_2.index t (0 : Fin 2) * 5000 + 1 * (j 0).val = t.val * 5000 + (j 0).val; omega
  | ⟨1, _⟩ => show win0_2.index t (1 : Fin 2) * 256 + 1 * (j 1).val = (j 1).val; omega

/-- WHAT POINT `t` WRITES BACK is block `t` of `proj` of the arrays the region found. -/
theorem flushed_eq (hbody : ∀ (v0 : FVec Ideal S5000x1 .f32) (v2 : FVec Ideal S1x256 .f32), k0_pay1 (F := Ideal) v0 v2 = proj (R := 5000) v0 v2)
    (c : Dev nD) (t : Fin cfg0.N) :
    (dat0 V c).flushed 2 t = ((cfg0.win 2).blk t).view.read (Elt Ideal) (proj (R := 50000) (V c main_arg0) (V c main_arg1)) := by
  show (cfg0.win 2).cut (grid0.coords t) ((dat0 V c).after 2 t) = _
  rw [after0_2]
  unfold out0_2
  rw [View.canon_unit_zero hz]
  simp only [View.ld_unit_zero (S := S5000x1) hz, View.ld_unit_zero (S := S1x256) hz]
  rw [hbody, blk_x V c t, blk_w V c t, proj_rows]
  funext j
  show proj (R := 50000) (V c main_arg0) (V c main_arg1) (ix2 (rowAt t (j 0)) (j 1))
    = proj (R := 50000) (V c main_arg0) (V c main_arg1) (((cfg0.win 2).blk t).view.emb j)
  exact congrArg _ (emb_out t j).symm

/-- An index of the result is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v30).slice (win0_2.rect t)).set ↔ _
  rw [View.set_slice_whole, Rect.mem_set_unit]
  exact Iff.rfl

/-- The ten blocks cover the result: row `r` is in the block of point `r / 5000`. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 5000, lt_of_lt_of_eq (by omega : (i 0).val / 5000 < 10) N_0.symm⟩
  obtain ⟨-, -, -, -, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- THE RESULT after the region: `proj` of the arrays the region found. -/
theorem final (hbody : ∀ (v0 : FVec Ideal S5000x1 .f32) (v2 : FVec Ideal S1x256 .f32), k0_pay1 (F := Ideal) v0 v2 = proj (R := 5000) v0 v2)
    (c : Dev nD) : (dat0 V c).arrAt 2 cfg0.N = proj (R := 50000) (V c main_arg0) (V c main_arg1) :=
  (dat0 V c).arrAt_eq_of_cover 2 _ (fun t _ => flushed_eq V hbody c t) cover

end Cert.KernelIdeal.Blocks0

end
-- ==== Proof.Blocks1.lean ====
/- The second grid region: bias, normalization with running statistics, scale, shift, positive part and the product
   with the second weight matrix, block of rows by block of rows.

   The grid has ten points. At point `t` the window of aggregated features shows rows `5000 t … 5000 t + 4999`, the five
   parameter vectors and the weight matrix are shown whole at every point, and the result window shows the same rows of
   the result; every point writes its block back. The body's arithmetic on a block is `normProj` on 5000 rows (a hypothesis
   here, proved with the bodies), and `normProj` is local to a row, so what point `t` writes back is block `t` of
   `normProj` of the whole arrays; the ten blocks cover the result. -/
import proofs.«117283_j10685878633098_2_alg».proof.Proof.Gen.KernelIdeal.Frame
import proofs.«117283_j10685878633098_2_alg».proof.Proof.Spec
import Idealize.ShloMosaic.Lib.Pipeline.Value

set_option maxRecDepth 16384

noncomputable section

namespace Cert.KernelIdeal.Blocks1

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Which block each window shows at grid point `t`: the two row-blocked windows block `t`, every other window block 0. -/
theorem idx_facts : ∀ t : Fin cfg1.N, win1_0.index t (0 : Fin 2) = t.val ∧ win1_0.index t (1 : Fin 2) = 0
    ∧ win1_1.index t (0 : Fin 1) = 0 ∧ win1_2.index t (0 : Fin 1) = 0 ∧ win1_3.index t (0 : Fin 1) = 0
    ∧ win1_4.index t (0 : Fin 1) = 0 ∧ win1_5.index t (0 : Fin 1) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem lt_ten (t : Fin cfg1.N) : t.val < 10 := lt_of_lt_of_eq t.isLt N_1

/-- The row of the whole array that row `p` of point `t`'s block is. -/
def rowAt (t : Fin cfg1.N) : Fin 5000 → Fin 50000 := fun p => ⟨t.val * 5000 + p.val, by have := lt_ten t; have := p.isLt; omega⟩

/-- The aggregated-features window's block at point `t` is that array's rows `rowAt t`. -/
theorem blk_a (c : Dev nD) (t : Fin cfg1.N) : iblk1 V c 0 t = rows (rowAt t) (V c main_v43) := by
  funext y
  show V c main_v43 (((cfg1.win 0).blk t).view.emb y) = V c main_v43 (ix2 (rowAt t (y 0)) (y 1))
  obtain ⟨e0, e1, -⟩ := idx_facts t
  refine congrArg _ (funext fun a => Fin.ext ?_)
  match a with
  | ⟨0, _⟩ => show win1_0.index t (0 : Fin 2) * 5000 + 1 * (y 0).val = t.val * 5000 + (y 0).val; omega
  | ⟨1, _⟩ => show win1_0.index t (1 : Fin 2) * 256 + 1 * (y 1).val = (y 1).val; omega

/-- Each parameter window's block at every point is its whole vector. -/
theorem blk_p1 (c : Dev nD) (t : Fin cfg1.N) : iblk1 V c 1 t = V c main_arg2 := by
  funext y
  show V c main_arg2 (((cfg1.win 1).blk t).view.emb y) = V c main_arg2 y
  obtain ⟨-, -, e, -⟩ := idx_facts t
  refine congrArg _ (funext fun a => Fin.ext ?_)
  match a with
  | ⟨0, _⟩ => show win1_1.index t (0 : Fin 1) * 256 + 1 * (y 0).val = (y 0).val; omega
theorem blk_p2 (c : Dev nD) (t : Fin cfg1.N) : iblk1 V c 2 t = V c main_arg3 := by
  funext y
  show V c main_arg3 (((cfg1.win 2).blk t).view.emb y) = V c main_arg3 y
  obtain ⟨-, -, -, e, -⟩ := idx_facts t
  refine congrArg _ (funext fun a => Fin.ext ?_)
  match a with
  | ⟨0, _⟩ => show win1_2.index t (0 : Fin 1) * 256 + 1 * (y 0).val = (y 0).val; omega
theorem blk_p3 (c : Dev nD) (t : Fin cfg1.N) : iblk1 V c 3 t = V c main_arg4 := by
  funext y
  show V c main_arg4 (((cfg1.win 3).blk t).view.emb y) = V c main_arg4 y
  obtain ⟨-, -, -, -, e, -⟩ := idx_facts t
  refine congrArg _ (funext fun a => Fin.ext ?_)
  match a with
  | ⟨0, _⟩ => show win1_3.index t (0 : Fin 1) * 256 + 1 * (y 0).val = (y 0).val; omega
theorem blk_p4 (c : Dev nD) (t : Fin cfg1.N) : iblk1 V c 4 t = V c main_arg5 := by
  funext y
  show V c main_arg5 (((cfg1.win 4).blk t).view.emb y) = V c main_arg5 y
  obtain ⟨-, -, -, -, -, e, -⟩ := idx_facts t
  refine congrArg _ (funext fun a => Fin.ext ?_)
  match a with
  | ⟨0, _⟩ => show win1_4.index t (0 : Fin 1) * 256 + 1 * (y 0).val = (y 0).val; omega
theorem blk_p5 (c : Dev nD) (t : Fin cfg1.N) : iblk1 V c 5 t = V c main_arg6 := by
  funext y
  show V c main_arg6 (((cfg1.win 5).blk t).view.emb y) = V c main_arg6 y
  obtain ⟨-, -, -, -, -, -, e, -⟩ := idx_facts t
  refine congrArg _ (funext fun a => Fin.ext ?_)
  match a with
  | ⟨0, _⟩ => show win1_5.index t (0 : Fin 1) * 256 + 1 * (y 0).val = (y 0).val; omega

/-- The weight window's block at every point is the whole weight matrix. -/
theorem blk_w (c : Dev nD) (t : Fin cfg1.N) : iblk1 V c 6 t = V c main_arg7 := by
  funext y
  show V c main_arg7 (((cfg1.win 6).blk t).view.emb y) = V c main_arg7 y
  obtain ⟨-, -, -, -, -, -, -, e0, e1, -⟩ := idx_facts t
  refine congrArg _ (funext fun a => Fin.ext ?_)
  match a with
  | ⟨0, _⟩ => show win1_6.index t (0 : Fin 2) * 256 + 1 * (y 0).val = (y 0).val; omega
  | ⟨1, _⟩ => show win1_6.index t (1 : Fin 2) * 64 + 1 * (y 1).val = (y 1).val; omega

/-- Where an index of the result window's block at point `t` sits in the result. -/
theorem emb_out (t : Fin cfg1.N) (j : (⟨2, ![5000, 64]⟩ : Shape).Idx) :
    ((cfg1.win 7).blk t).view.emb j = ix2 (rowAt t (j 0)) (j 1) := by
  obtain ⟨-, -, -, -, -, -, -, -, -, e0, e1⟩ := idx_facts t
  refine funext fun a => Fin.ext ?_
  match a with
  | ⟨0, _⟩ => show win1_7.index t (0 : Fin 2) * 5000 + 1 * (j 0).val = t.val * 5000 + (j 0).val; omega
  | ⟨1, _⟩ => show win1_7.index t (1 : Fin 2) * 64 + 1 * (j 1).val = (j 1).val; omega

/-- WHAT POINT `t` WRITES BACK is block `t` of `normProj` of the arrays the region found. -/
theorem flushed_eq
    (hbody : ∀ (v0 : FVec Ideal S5000x256 .f32) (v2 v6 v10 v17 v21 : FVec Ideal S256 .f32) (v28 : FVec Ideal S256x64 .f32),
      k1_pay1 (F := Ideal) v0 v2 v6 v10 v17 v21 v28 = normProj (R := 5000) v0 v2 v17 v21 v6 v10 v28)
    (c : Dev nD) (t : Fin cfg1.N) :
    (dat1 V c).flushed 7 t = ((cfg1.win 7).blk t).view.read (Elt Ideal)
      (normProj (R := 50000) (V c main_v43) (V c main_arg2) (V c main_arg3) (V c main_arg4) (V c main_arg5) (V c main_arg6) (V c main_arg7)) := by
  show (cfg1.win 7).cut (grid1.coords t) ((dat1 V c).after 7 t) = _
  rw [after1_7]
  unfold out1_7
  rw [View.canon_unit_zero hz]
  simp only [View.ld_unit_zero (S := S5000x256) hz, View.ld_unit_zero (S := S256) hz1, View.ld_unit_zero (S := S256x64) hz]
  rw [hbody, blk_a V c t, blk_p1 V c t, blk_p2 V c t, blk_p3 V c t, blk_p4 V c t, blk_p5 V c t, blk_w V c t, normProj_rows]
  funext j
  show normProj (R := 50000) (V c main_v43) (V c main_arg2) (V c main_arg3) (V c main_arg4) (V c main_arg5) (V c main_arg6) (V c main_arg7) (ix2 (rowAt t (j 0)) (j 1))
    = normProj (R := 50000) (V c main_v43) (V c main_arg2) (V c main_arg3) (V c main_arg4) (V c main_arg5) (V c main_arg6) (V c main_arg7) (((cfg1.win 7).blk t).view.emb j)
  exact congrArg _ (emb_out t j).symm

/-- An index of the result is in point `t`'s block iff each coordinate is in the block's range on its axis. -/
theorem mem_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v44).slice (win1_7.rect t)).set ↔ _
  rw [View.set_slice_whole, Rect.mem_set_unit]
  exact Iff.rfl

/-- The ten blocks cover the result: row `r` is in the block of point `r / 5000`. -/
theorem cover (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  let t : Fin cfg1.N := ⟨(i 0).val / 5000, lt_of_lt_of_eq (by omega : (i 0).val / 5000 < 10) N_1.symm⟩
  obtain ⟨-, -, -, -, -, -, -, -, -, e0, e1⟩ := idx_facts t
  have e0' : win1_7.index t (0 : Fin 2) = (i 0).val / 5000 := e0
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- THE RESULT after the region: `normProj` of the arrays the region found. -/
theorem final
    (hbody : ∀ (v0 : FVec Ideal S5000x256 .f32) (v2 v6 v10 v17 v21 : FVec Ideal S256 .f32) (v28 : FVec Ideal S256x64 .f32),
      k1_pay1 (F := Ideal) v0 v2 v6 v10 v17 v21 v28 = normProj (R := 5000) v0 v2 v17 v21 v6 v10 v28)
    (c : Dev nD) : (dat1 V c).arrAt 7 cfg1.N
      = normProj (R := 50000) (V c main_v43) (V c main_arg2) (V c main_arg3) (V c main_arg4) (V c main_arg5) (V c main_arg6) (V c main_arg7) :=
  (dat1 V c).arrAt_eq_of_cover 7 _ (fun t _ => flushed_eq V hbody c t) cover

end Cert.KernelIdeal.Blocks1

end
-- ==== Proof.Blocks2.lean ====
/- The third grid region: the classifier on top of the second convolution, block of rows by block of rows.

   The grid has ten points. At point `t` the window of aggregated features shows rows `5000 t … 5000 t + 4999`; the five
   normalization vectors, the two weight matrices and the two bias vectors are shown whole at every point; the result
   window shows the same rows of the result, and every point writes its block back. The body's arithmetic on a block is
   `head` on 5000 rows (a hypothesis here, proved with the bodies), and `head` is local to a row, so what point `t`
   writes back is block `t` of `head` of the whole arrays; the ten blocks cover the result. -/
import proofs.«117283_j10685878633098_2_alg».proof.Proof.Gen.KernelIdeal.Frame
import proofs.«117283_j10685878633098_2_alg».proof.Proof.Spec
import Idealize.ShloMosaic.Lib.Pipeline.Value

set_option maxRecDepth 16384

noncomputable section

namespace Cert.KernelIdeal.Blocks2

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Which block each window shows at grid point `t`: the two row-blocked windows block `t`, every other window block 0. -/
theorem idx_facts : ∀ t : Fin cfg2.N, win2_0.index t (0 : Fin 2) = t.val ∧ win2_0.index t (1 : Fin 2) = 0
    ∧ win2_1.index t (0 : Fin 1) = 0 ∧ win2_2.index t (0 : Fin 1) = 0 ∧ win2_3.index t (0 : Fin 1) = 0
    ∧ win2_4.index t (0 : Fin 1) = 0 ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = 0 ∧ win2_8.index t (1 : Fin 2) = 0
    ∧ win2_9.index t (0 : Fin 1) = 0
    ∧ win2_10.index t (0 : Fin 2) = t.val ∧ win2_10.index t (1 : Fin 2) = 0 :=
  (by decide +kernel : ∀ t : Fin grid2.N, _)

theorem lt_ten (t : Fin cfg2.N) : t.val < 10 := lt_of_lt_of_eq t.isLt N_2

/-- The row of the whole array that row `p` of point `t`'s block is. -/
def rowAt (t : Fin cfg2.N) : Fin 5000 → Fin 50000 := fun p => ⟨t.val * 5000 + p.val, by have := lt_ten t; have := p.isLt; omega⟩

/-- The aggregated-features window's block at point `t` is that array's rows `rowAt t`. -/
theorem blk_a (c : Dev nD) (t : Fin cfg2.N) : iblk2 V c 0 t = rows (rowAt t) (V c main_v57) := by
  funext y
  show V c main_v57 (((cfg2.win 0).blk t).view.emb y) = V c main_v57 (ix2 (rowAt t (y 0)) (y 1))
  obtain ⟨e0, e1, -⟩ := idx_facts t
  refine congrArg _ (funext fun a => Fin.ext ?_)
  match a with
  | ⟨0, _⟩ => show win2_0.index t (0 : Fin 2) * 5000 + 1 * (y 0).val = t.val * 5000 + (y 0).val; omega
  | ⟨1, _⟩ => show win2_0.index t (1 : Fin 2) * 64 + 1 * (y 1).val = (y 1).val; omega

/-- Each normalization vector's window shows the whole vector at every point. -/
theorem blk_p1 (c : Dev nD) (t : Fin cfg2.N) : iblk2 V c 1 t = V c main_arg8 := by
  funext y
  show V c main_arg8 (((cfg2.win 1).blk t).view.emb y) = V c main_arg8 y
  obtain ⟨-, -, e, -⟩ := idx_facts t
  refine congrArg _ (funext fun a => Fin.ext ?_)
  match a with
  | ⟨0, _⟩ => show win2_1.index t (0 : Fin 1) * 64 + 1 * (y 0).val = (y 0).val; omega
theorem blk_p2 (c : Dev nD) (t : Fin cfg2.N) : iblk2 V c 2 t = V c main_arg9 := by
  funext y
  show V c main_arg9 (((cfg2.win 2).blk t).view.emb y) = V c main_arg9 y
  obtain ⟨-, -, -, e, -⟩ := idx_facts t
  refine congrArg _ (funext fun a => Fin.ext ?_)
  match a with
  | ⟨0, _⟩ => show win2_2.index t (0 : Fin 1) * 64 + 1 * (y 0).val = (y 0).val; omega
theorem blk_p3 (c : Dev nD) (t : Fin cfg2.N) : iblk2 V c 3 t = V c main_arg10 := by
  funext y
  show V c main_arg10 (((cfg2.win 3).blk t).view.emb y) = V c main_arg10 y
  obtain ⟨-, -, -, -, e, -⟩ := idx_facts t
  refine congrArg _ (funext fun a => Fin.ext ?_)
  match a with
  | ⟨0, _⟩ => show win2_3.index t (0 : Fin 1) * 64 + 1 * (y 0).val = (y 0).val; omega
theorem blk_p4 (c : Dev nD) (t : Fin cfg2.N) : iblk2 V c 4 t = V c main_arg11 := by
  funext y
  show V c main_arg11 (((cfg2.win 4).blk t).view.emb y) = V c main_arg11 y
  obtain ⟨-, -, -, -, -, e, -⟩ := idx_facts t
  refine congrArg _ (funext fun a => Fin.ext ?_)
  match a with
  | ⟨0, _⟩ => show win2_4.index t (0 : Fin 1) * 64 + 1 * (y 0).val = (y 0).val; omega
theorem blk_p5 (c : Dev nD) (t : Fin cfg2.N) : iblk2 V c 5 t = V c main_arg12 := by
  funext y
  show V c main_arg12 (((cfg2.win 5).blk t).view.emb y) = V c main_arg12 y
  obtain ⟨-, -, -, -, -, -, e, -⟩ := idx_facts t
  refine congrArg _ (funext fun a => Fin.ext ?_)
  match a with
  | ⟨0, _⟩ => show win2_5.index t (0 : Fin 1) * 64 + 1 * (y 0).val = (y 0).val; omega

/-- The first weight matrix's window shows the whole matrix at every point. -/
theorem blk_w1 (c : Dev nD) (t : Fin cfg2.N) : iblk2 V c 6 t = V c main_arg13 := by
  funext y
  show V c main_arg13 (((cfg2.win 6).blk t).view.emb y) = V c main_arg13 y
  obtain ⟨-, -, -, -, -, -, -, e0, e1, -⟩ := idx_facts t
  refine congrArg _ (funext fun a => Fin.ext ?_)
  match a with
  | ⟨0, _⟩ => show win2_6.index t (0 : Fin 2) * 64 + 1 * (y 0).val = (y 0).val; omega
  | ⟨1, _⟩ => show win2_6.index t (1 : Fin 2) * 16 + 1 * (y 1).val = (y 1).val; omega

/-- The hidden layer's bias window shows the whole vector at every point. -/
theorem blk_b1 (c : Dev nD) (t : Fin cfg2.N) : iblk2 V c 7 t = V c main_arg14 := by
  funext y
  show V c main_arg14 (((cfg2.win 7).blk t).view.emb y) = V c main_arg14 y
  obtain ⟨-, -, -, -, -, -, -, -, -, e, -⟩ := idx_facts t
  refine congrArg _ (funext fun a => Fin.ext ?_)
  match a with
  | ⟨0, _⟩ => show win2_7.index t (0 : Fin 1) * 16 + 1 * (y 0).val = (y 0).val; omega

/-- The second weight matrix's window shows the whole matrix at every point. -/
theorem blk_w2 (c : Dev nD) (t : Fin cfg2.N) : iblk2 V c 8 t = V c main_arg15 := by
  funext y
  show V c main_arg15 (((cfg2.win 8).blk t).view.emb y) = V c main_arg15 y
  obtain ⟨-, -, -, -, -, -, -, -, -, -, e0, e1, -⟩ := idx_facts t
  refine congrArg _ (funext fun a => Fin.ext ?_)
  match a with
  | ⟨0, _⟩ => show win2_8.index t (0 : Fin 2) * 16 + 1 * (y 0).val = (y 0).val; omega
  | ⟨1, _⟩ => show win2_8.index t (1 : Fin 2) * 6 + 1 * (y 1).val = (y 1).val; omega

/-- The class bias window shows the whole vector at every point. -/
theorem blk_b2 (c : Dev nD) (t : Fin cfg2.N) : iblk2 V c 9 t = V c main_arg16 := by
  funext y
  show V c main_arg16 (((cfg2.win 9).blk t).view.emb y) = V c main_arg16 y
  obtain ⟨-, -, -, -, -, -, -, -, -, -, -, -, e, -⟩ := idx_facts t
  refine congrArg _ (funext fun a => Fin.ext ?_)
  match a with
  | ⟨0, _⟩ => show win2_9.index t (0 : Fin 1) * 6 + 1 * (y 0).val = (y 0).val; omega

/-- Where an index of the result window's block at point `t` sits in the result. -/
theorem emb_out (t : Fin cfg2.N) (j : (⟨2, ![5000, 6]⟩ : Shape).Idx) :
    ((cfg2.win 10).blk t).view.emb j = ix2 (rowAt t (j 0)) (j 1) := by
  obtain ⟨-, -, -, -, -, -, -, -, -, -, -, -, -, e0, e1⟩ := idx_facts t
  refine funext fun a => Fin.ext ?_
  match a with
  | ⟨0, _⟩ => show win2_10.index t (0 : Fin 2) * 5000 + 1 * (j 0).val = t.val * 5000 + (j 0).val; omega
  | ⟨1, _⟩ => show win2_10.index t (1 : Fin 2) * 6 + 1 * (j 1).val = (j 1).val; omega

/-- WHAT POINT `t` WRITES BACK is block `t` of `head` of the arrays the region found. -/
theorem flushed_eq
    (hbody : ∀ (v0 : FVec Ideal S5000x64 .f32) (v2 v6 v10 v17 v21 : FVec Ideal S64 .f32) (v28 : FVec Ideal S64x16 .f32)
        (v31 : FVec Ideal S16 .f32) (v38 : FVec Ideal S16x6 .f32) (v41 : FVec Ideal S6 .f32),
      k2_pay1 (F := Ideal) (k2_pay2 (F := Ideal) v0 v2 v6 v10 v17 v21 v28 v31 v38) v41 = head (R := 5000) v0 v2 v17 v21 v6 v10 v28 v31 v38 v41)
    (c : Dev nD) (t : Fin cfg2.N) :
    (dat2 V c).flushed 10 t = ((cfg2.win 10).blk t).view.read (Elt Ideal)
      (head (R := 50000) (V c main_v57) (V c main_arg8) (V c main_arg9) (V c main_arg10) (V c main_arg11) (V c main_arg12)
        (V c main_arg13) (V c main_arg14) (V c main_arg15) (V c main_arg16)) := by
  show (cfg2.win 10).cut (grid2.coords t) ((dat2 V c).after 10 t) = _
  rw [after2_10]
  unfold out2_10
  rw [View.canon_unit_zero hz]
  simp only [View.ld_unit_zero (S := S5000x64) hz, View.ld_unit_zero (S := S64) hz1, View.ld_unit_zero (S := S64x16) hz,
    View.ld_unit_zero (S := S16) hz1, View.ld_unit_zero (S := S16x6) hz, View.ld_unit_zero (S := S6) hz1]
  rw [hbody, blk_a V c t, blk_p1 V c t, blk_p2 V c t, blk_p3 V c t, blk_p4 V c t, blk_p5 V c t, blk_w1 V c t, blk_b1 V c t,
    blk_w2 V c t, blk_b2 V c t, head_rows]
  funext j
  show head (R := 50000) (V c main_v57) (V c main_arg8) (V c main_arg9) (V c main_arg10) (V c main_arg11) (V c main_arg12)
        (V c main_arg13) (V c main_arg14) (V c main_arg15) (V c main_arg16) (ix2 (rowAt t (j 0)) (j 1))
    = head (R := 50000) (V c main_v57) (V c main_arg8) (V c main_arg9) (V c main_arg10) (V c main_arg11) (V c main_arg12)
        (V c main_arg13) (V c main_arg14) (V c main_arg15) (V c main_arg16) (((cfg2.win 10).blk t).view.emb j)
  exact congrArg _ (emb_out t j).symm

/-- An index of the result is in point `t`'s block iff each coordinate is in the block's range on its axis. -/
theorem mem_blk (t : Fin cfg2.N) (i : S50000x6.Idx) :
    i ∈ ((cfg2.win 10).blk t).view.set ↔ ∀ a : Fin 2, win2_10.index t a * S5000x6.size a ≤ (i a).val ∧ (i a).val < win2_10.index t a * S5000x6.size a + S5000x6.size a := by
  show i ∈ ((View.whole main_v58).slice (win2_10.rect t)).set ↔ _
  rw [View.set_slice_whole, Rect.mem_set_unit]
  exact Iff.rfl

/-- The ten blocks cover the result: row `r` is in the block of point `r / 5000`. -/
theorem cover (i : S50000x6.Idx) : ∃ t : Fin cfg2.N, (cfg2.win 10).flush t = true ∧ i ∈ ((cfg2.win 10).blk t).view.set := by
  have hi0 : (i 0).val < 50000 := (i 0).isLt
  have hi1 : (i 1).val < 6 := (i 1).isLt
  let t : Fin cfg2.N := ⟨(i 0).val / 5000, lt_of_lt_of_eq (by omega : (i 0).val / 5000 < 10) N_2.symm⟩
  obtain ⟨-, -, -, -, -, -, -, -, -, -, -, -, -, e0, e1⟩ := idx_facts t
  have e0' : win2_10.index t (0 : Fin 2) = (i 0).val / 5000 := e0
  refine ⟨t, flush2_10 t, ?_⟩
  rw [mem_blk]
  intro a
  match a with
  | ⟨0, _⟩ => show win2_10.index t (0 : Fin 2) * 5000 ≤ (i 0).val ∧ (i 0).val < win2_10.index t (0 : Fin 2) * 5000 + 5000; omega
  | ⟨1, _⟩ => show win2_10.index t (1 : Fin 2) * 6 ≤ (i 1).val ∧ (i 1).val < win2_10.index t (1 : Fin 2) * 6 + 6; omega

/-- THE RESULT after the region: `head` of the arrays the region found. -/
theorem final
    (hbody : ∀ (v0 : FVec Ideal S5000x64 .f32) (v2 v6 v10 v17 v21 : FVec Ideal S64 .f32) (v28 : FVec Ideal S64x16 .f32)
        (v31 : FVec Ideal S16 .f32) (v38 : FVec Ideal S16x6 .f32) (v41 : FVec Ideal S6 .f32),
      k2_pay1 (F := Ideal) (k2_pay2 (F := Ideal) v0 v2 v6 v10 v17 v21 v28 v31 v38) v41 = head (R := 5000) v0 v2 v17 v21 v6 v10 v28 v31 v38 v41)
    (c : Dev nD) : (dat2 V c).arrAt 10 cfg2.N
      = head (R := 50000) (V c main_v57) (V c main_arg8) (V c main_arg9) (V c main_arg10) (V c main_arg11) (V c main_arg12)
          (V c main_arg13) (V c main_arg14) (V c main_arg15) (V c main_arg16) :=
  (dat2 V c).arrAt_eq_of_cover 10 _ (fun t _ => flushed_eq V hbody c t) cover

end Cert.KernelIdeal.Blocks2

end
-- ==== Proof.Glue.lean ====
/- The idealized kernel program's result, read back through its segment boundaries, is the reference's last stage of
   the launch arguments.

   Both programs compute the edge lists (the given edges followed by one loop per node), the node degrees, the edge
   weights (the product of the inverse square roots of the two end points' degrees), and twice gather rows along the
   edges, weight them and add them up per target node — with the SAME host operations. They differ only in what
   stands between those stretches: the kernel program runs a grid region where the reference applies host operations.
   So the argument walks the kernel program's boundaries once, from the launch to the return:
   * at the first region's entry the edge lists and weights are the reference's stages of the edge argument, and every
     argument array is as launched (no host operation and no region writes one);
   * the first region leaves `proj` of the feature column and the first weights, which is the reference's first
     matrix product; the stretch after it is the reference's first aggregation;
   * the second region leaves `normProj` of that aggregation, the reference's stages up to the second matrix product;
     the stretch after it is the reference's second aggregation (the reference recomputes the edge lists and weights
     there, by the same operations);
   * the third region leaves `head` of that aggregation, the reference's remaining stages.
   The three equations "a region's arithmetic on a block is the specification" and the three equations "a stretch of the
   reference is the specification" are hypotheses here; they are proved in their own modules. -/
import proofs.«117283_j10685878633098_2_alg».proof.Proof.Gen.KernelIdeal.Frame
import proofs.«117283_j10685878633098_2_alg».proof.Proof.RefRead
import proofs.«117283_j10685878633098_2_alg».proof.Proof.Spec
import proofs.«117283_j10685878633098_2_alg».proof.Proof.Blocks0
import proofs.«117283_j10685878633098_2_alg».proof.Proof.Blocks1
import proofs.«117283_j10685878633098_2_alg».proof.Proof.Blocks2
import proofs.«117283_j10685878633098_2_alg».proof.Proof.LibTypedRefs

set_option maxRecDepth 16384

noncomputable section

namespace Cert.KernelIdeal.Glue

open Cert.KernelIdeal Cert.KernelIdeal.Gen Cert.GraphConv
open Idealize.ShloMosaic Idealize.ShloMosaic.TcCoe Idealize.SL.Sem Idealize.ShloMosaic.StableHlo
open Cert.ReferenceIdeal.ReadP (val_main_v4 val_main_v6 val_main_v7 val_main_v13 val_main_v14 val_main_cst_2 val_main_v15 val_main_v30 val_main_v43 val_main_v63 val_main_v102 val_main_v131)

variable (m : (ℓ : Loc nD τ sig) → Buf (Elt Ideal) ℓ) (ρ : Dev nD → PrngReg)

/-! ## At the first region's entry

Three stretches of host operations come before the first region: the edge lists, the degrees, their comparison with
zero and their inverse square roots; the choice between the inverse square root and zero; the two gathers of that
choice along the edges and their product, the edge weights. Each stretch is read over the contents the previous one
left. -/

/-! ### After the first stretch -/

set_option maxHeartbeats 4000000 in
/-- The source end points of the edges (the given ones, then one loop per node). -/
theorem src_1 (c : Dev nD) : W1 m ρ c (Proc.devRef .tc main_v5) = val_main_v6 (F := Ideal) (m ((c.tc : Thread nD τ).loc main_arg17)) := by
  dsimp only [W1]
  simp only [hostOps0]
  after_results <;> rfl

set_option maxHeartbeats 4000000 in
/-- The target end points of the edges. -/
theorem dst_1 (c : Dev nD) : W1 m ρ c (Proc.devRef .tc main_v6) = val_main_v7 (F := Ideal) (m ((c.tc : Thread nD τ).loc main_arg17)) := by
  dsimp only [W1]
  simp only [hostOps0]
  after_results <;> rfl

set_option maxHeartbeats 4000000 in
/-- Which nodes have a positive degree. -/
theorem pos_1 (c : Dev nD) : W1 m ρ c (Proc.devRef .tc main_v12) = val_main_v13 (F := Ideal) (m ((c.tc : Thread nD τ).loc main_arg17)) := by
  dsimp only [W1]
  simp only [hostOps0]
  after_results <;> rfl

set_option maxHeartbeats 4000000 in
/-- The inverse square roots of the degrees. -/
theorem rsq_1 (c : Dev nD) : W1 m ρ c (Proc.devRef .tc main_v13) = val_main_v14 (F := Ideal) (m ((c.tc : Thread nD τ).loc main_arg17)) := by
  dsimp only [W1]
  simp only [hostOps0]
  after_results <;> rfl

/-- The zero that stands in for a node without edges. -/
theorem zero_1 (c : Dev nD) : W1 m ρ c (Proc.devRef .tc main_cst_2) = val_main_cst_2 (F := Ideal) := by
  dsimp only [W1]
  simp only [hostOps0]
  after_results <;> rfl

/-! ### After the second stretch

The choice between the inverse square root and zero is an inlined function: its operations are stated at the tensor
values' types and moved to the buffers' types and back. At a literal buffer the move is the identity. -/

theorem toBuf_choice (h1 h2 h3) (v : (⟨S50000, .f32⟩ : BufTy).Contents (Elt Ideal)) :
    (TRef.of (T := ⟨S50000, .f32⟩) main_v14 h1 h2 h3).toBuf v = v := rfl
theorem ofBuf_pos (h1 h2 h3) (v : main_v12.ty.Contents (Elt Ideal)) :
    (TRef.of (T := ⟨S50000, .i1⟩) main_v12 h1 h2 h3).ofBuf v = v := rfl
theorem ofBuf_rsq (h1 h2 h3) (v : main_v13.ty.Contents (Elt Ideal)) :
    (TRef.of (T := ⟨S50000, .f32⟩) main_v13 h1 h2 h3).ofBuf v = v := rfl
theorem ofBuf_zero (h1 h2 h3) (v : main_cst_2.ty.Contents (Elt Ideal)) :
    (TRef.of (T := ⟨S_, .f32⟩) main_cst_2 h1 h2 h3).ofBuf v = v := rfl

/-- The inverse square root of the degree where it is positive, zero elsewhere. -/
theorem dinv_2 (c : Dev nD) : W2 m ρ c (Proc.devRef .tc main_v14) = val_main_v15 (F := Ideal) (m ((c.tc : Thread nD τ).loc main_arg17)) := by
  have e12 := pos_1 m ρ c
  have e13 := rsq_1 m ρ c
  have ez := zero_1 m ρ c
  dsimp only [W2]
  generalize W1 m ρ c = V at e12 e13 ez ⊢
  simp only [hostOps0_1]
  after_results_simp
  rw [e12, e13, ez]
  simp only [Cert.Lib.TypedRefs.ofBuf_toBuf, Cert.Lib.TypedRefs.toBuf_ofBuf]
  rw [toBuf_choice, ofBuf_pos, ofBuf_rsq, ofBuf_zero]
  rfl

theorem src_2 (c : Dev nD) : W2 m ρ c (Proc.devRef .tc main_v5) = val_main_v6 (F := Ideal) (m ((c.tc : Thread nD τ).loc main_arg17)) := by
  have e := src_1 m ρ c
  dsimp only [W2]
  generalize W1 m ρ c = V at e ⊢
  simp only [hostOps0_1]
  after_results_simp
  exact e

theorem dst_2 (c : Dev nD) : W2 m ρ c (Proc.devRef .tc main_v6) = val_main_v7 (F := Ideal) (m ((c.tc : Thread nD τ).loc main_arg17)) := by
  have e := dst_1 m ρ c
  dsimp only [W2]
  generalize W1 m ρ c = V at e ⊢
  simp only [hostOps0_1]
  after_results_simp
  exact e

/-! ### After the third stretch: the first region's entry -/

theorem src_entry (c : Dev nD) : W3 m ρ c (Proc.devRef .tc main_v5) = val_main_v6 (F := Ideal) (m ((c.tc : Thread nD τ).loc main_arg17)) := by
  have e := src_2 m ρ c
  dsimp only [W3]
  generalize W2 m ρ c = V at e ⊢
  simp only [hostOps0_2]
  after_results_simp
  exact e

theorem dst_entry (c : Dev nD) : W3 m ρ c (Proc.devRef .tc main_v6) = val_main_v7 (F := Ideal) (m ((c.tc : Thread nD τ).loc main_arg17)) := by
  have e := dst_2 m ρ c
  dsimp only [W3]
  generalize W2 m ρ c = V at e ⊢
  simp only [hostOps0_2]
  after_results_simp
  exact e

set_option maxHeartbeats 2000000 in
/-- The edge weights. -/
theorem weight_entry (c : Dev nD) : W3 m ρ c (Proc.devRef .tc main_v29) = val_main_v30 (F := Ideal) (m ((c.tc : Thread nD τ).loc main_arg17)) := by
  have e14 := dinv_2 m ρ c
  have e5 := src_2 m ρ c
  have e6 := dst_2 m ρ c
  dsimp only [W3]
  generalize W2 m ρ c = V at e14 e5 e6 ⊢
  simp only [hostOps0_2]
  after_results_simp
  rw [e14, e5, e6]
  rfl

/-! Every argument array is as launched. -/

set_option maxHeartbeats 8000000 in
/-- At the first region's entry the seventeen float argument arrays are as launched. -/
theorem args_entry (c : Dev nD) :
    W3 m ρ c (Proc.devRef .tc main_arg0) = m ((c.tc : Thread nD τ).loc main_arg0)
    ∧ W3 m ρ c (Proc.devRef .tc main_arg1) = m ((c.tc : Thread nD τ).loc main_arg1)
    ∧ W3 m ρ c (Proc.devRef .tc main_arg2) = m ((c.tc : Thread nD τ).loc main_arg2)
    ∧ W3 m ρ c (Proc.devRef .tc main_arg3) = m ((c.tc : Thread nD τ).loc main_arg3)
    ∧ W3 m ρ c (Proc.devRef .tc main_arg4) = m ((c.tc : Thread nD τ).loc main_arg4)
    ∧ W3 m ρ c (Proc.devRef .tc main_arg5) = m ((c.tc : Thread nD τ).loc main_arg5)
    ∧ W3 m ρ c (Proc.devRef .tc main_arg6) = m ((c.tc : Thread nD τ).loc main_arg6)
    ∧ W3 m ρ c (Proc.devRef .tc main_arg7) = m ((c.tc : Thread nD τ).loc main_arg7)
    ∧ W3 m ρ c (Proc.devRef .tc main_arg8) = m ((c.tc : Thread nD τ).loc main_arg8)
    ∧ W3 m ρ c (Proc.devRef .tc main_arg9) = m ((c.tc : Thread nD τ).loc main_arg9)
    ∧ W3 m ρ c (Proc.devRef .tc main_arg10) = m ((c.tc : Thread nD τ).loc main_arg10)
    ∧ W3 m ρ c (Proc.devRef .tc main_arg11) = m ((c.tc : Thread nD τ).loc main_arg11)
    ∧ W3 m ρ c (Proc.devRef .tc main_arg12) = m ((c.tc : Thread nD τ).loc main_arg12)
    ∧ W3 m ρ c (Proc.devRef .tc main_arg13) = m ((c.tc : Thread nD τ).loc main_arg13)
    ∧ W3 m ρ c (Proc.devRef .tc main_arg14) = m ((c.tc : Thread nD τ).loc main_arg14)
    ∧ W3 m ρ c (Proc.devRef .tc main_arg15) = m ((c.tc : Thread nD τ).loc main_arg15)
    ∧ W3 m ρ c (Proc.devRef .tc main_arg16) = m ((c.tc : Thread nD τ).loc main_arg16) := by
  dsimp only [W3, W2, W1]
  simp only [hostOps0, hostOps0_1, hostOps0_2]
  refine ⟨?_, ?_, ?_, ?_, ?_, ?_, ?_, ?_, ?_, ?_, ?_, ?_, ?_, ?_, ?_, ?_, ?_⟩ <;> (after_results_simp <;> rfl)

/-! ## The first region and the first aggregation -/

/-- The first region leaves the reference's first matrix product. -/
theorem proj_exit
    (hbody : ∀ (v0 : FVec Ideal S5000x1 .f32) (v2 : FVec Ideal S1x256 .f32), k0_pay1 (F := Ideal) v0 v2 = proj (R := 5000) v0 v2)
    (href : ∀ x0 x1, val_main_v4 (F := Ideal) x0 x1 = proj (R := 50000) x0 x1)
    (c : Dev nD) :
    W4 m ρ c (Proc.devRef .tc main_v30) = val_main_v4 (F := Ideal) (m ((c.tc : Thread nD τ).loc main_arg0)) (m ((c.tc : Thread nD τ).loc main_arg1)) := by
  rw [href]
  refine (W4_arr m ρ c 2).trans ((Blocks0.final (V3 m ρ) hbody c).trans ?_)
  show proj (R := 50000) (W3 m ρ c (Proc.devRef .tc main_arg0)) (W3 m ρ c (Proc.devRef .tc main_arg1)) = _
  obtain ⟨e0, e1, -⟩ := args_entry m ρ c
  rw [e0, e1]

theorem src_mid0 (c : Dev nD) : W4 m ρ c (Proc.devRef .tc main_v5) = val_main_v6 (F := Ideal) (m ((c.tc : Thread nD τ).loc main_arg17)) :=
  (W4_of_ne m ρ c main_v5 (by decide)).trans (src_entry m ρ c)
theorem dst_mid0 (c : Dev nD) : W4 m ρ c (Proc.devRef .tc main_v6) = val_main_v7 (F := Ideal) (m ((c.tc : Thread nD τ).loc main_arg17)) :=
  (W4_of_ne m ρ c main_v6 (by decide)).trans (dst_entry m ρ c)
theorem weight_mid0 (c : Dev nD) : W4 m ρ c (Proc.devRef .tc main_v29) = val_main_v30 (F := Ideal) (m ((c.tc : Thread nD τ).loc main_arg17)) :=
  (W4_of_ne m ρ c main_v29 (by decide)).trans (weight_entry m ρ c)

set_option maxHeartbeats 2000000 in
/-- The stretch after the first region is the reference's first aggregation. -/
theorem agg1
    (hbody : ∀ (v0 : FVec Ideal S5000x1 .f32) (v2 : FVec Ideal S1x256 .f32), k0_pay1 (F := Ideal) v0 v2 = proj (R := 5000) v0 v2)
    (href : ∀ x0 x1, val_main_v4 (F := Ideal) x0 x1 = proj (R := 50000) x0 x1)
    (c : Dev nD) :
    W5 m ρ c (Proc.devRef .tc main_v43) = val_main_v43 (F := Ideal) (m ((c.tc : Thread nD τ).loc main_arg0)) (m ((c.tc : Thread nD τ).loc main_arg1)) (m ((c.tc : Thread nD τ).loc main_arg17)) := by
  dsimp only [W5]
  simp only [hostOps1]
  after_results_simp
  rw [src_mid0, dst_mid0, weight_mid0, proj_exit m ρ hbody href c]
  rfl

theorem src_mid (c : Dev nD) : W5 m ρ c (Proc.devRef .tc main_v5) = val_main_v6 (F := Ideal) (m ((c.tc : Thread nD τ).loc main_arg17)) := by
  dsimp only [W5]
  simp only [hostOps1]
  after_results_simp
  exact src_mid0 m ρ c
theorem dst_mid (c : Dev nD) : W5 m ρ c (Proc.devRef .tc main_v6) = val_main_v7 (F := Ideal) (m ((c.tc : Thread nD τ).loc main_arg17)) := by
  dsimp only [W5]
  simp only [hostOps1]
  after_results_simp
  exact dst_mid0 m ρ c
theorem weight_mid (c : Dev nD) : W5 m ρ c (Proc.devRef .tc main_v29) = val_main_v30 (F := Ideal) (m ((c.tc : Thread nD τ).loc main_arg17)) := by
  dsimp only [W5]
  simp only [hostOps1]
  after_results_simp
  exact weight_mid0 m ρ c

set_option maxHeartbeats 8000000 in
/-- At the second region's entry the argument arrays it and the third region read are as launched. -/
theorem args_mid (c : Dev nD) :
    W5 m ρ c (Proc.devRef .tc main_arg2) = m ((c.tc : Thread nD τ).loc main_arg2)
    ∧ W5 m ρ c (Proc.devRef .tc main_arg3) = m ((c.tc : Thread nD τ).loc main_arg3)
    ∧ W5 m ρ c (Proc.devRef .tc main_arg4) = m ((c.tc : Thread nD τ).loc main_arg4)
    ∧ W5 m ρ c (Proc.devRef .tc main_arg5) = m ((c.tc : Thread nD τ).loc main_arg5)
    ∧ W5 m ρ c (Proc.devRef .tc main_arg6) = m ((c.tc : Thread nD τ).loc main_arg6)
    ∧ W5 m ρ c (Proc.devRef .tc main_arg7) = m ((c.tc : Thread nD τ).loc main_arg7)
    ∧ W5 m ρ c (Proc.devRef .tc main_arg8) = m ((c.tc : Thread nD τ).loc main_arg8)
    ∧ W5 m ρ c (Proc.devRef .tc main_arg9) = m ((c.tc : Thread nD τ).loc main_arg9)
    ∧ W5 m ρ c (Proc.devRef .tc main_arg10) = m ((c.tc : Thread nD τ).loc main_arg10)
    ∧ W5 m ρ c (Proc.devRef .tc main_arg11) = m ((c.tc : Thread nD τ).loc main_arg11)
    ∧ W5 m ρ c (Proc.devRef .tc main_arg12) = m ((c.tc : Thread nD τ).loc main_arg12)
    ∧ W5 m ρ c (Proc.devRef .tc main_arg13) = m ((c.tc : Thread nD τ).loc main_arg13)
    ∧ W5 m ρ c (Proc.devRef .tc main_arg14) = m ((c.tc : Thread nD τ).loc main_arg14)
    ∧ W5 m ρ c (Proc.devRef .tc main_arg15) = m ((c.tc : Thread nD τ).loc main_arg15)
    ∧ W5 m ρ c (Proc.devRef .tc main_arg16) = m ((c.tc : Thread nD τ).loc main_arg16) := by
  obtain ⟨-, -, e2, e3, e4, e5, e6, e7, e8, e9, e10, e11, e12, e13, e14, e15, e16⟩ := args_entry m ρ c
  dsimp only [W5]
  simp only [hostOps1]
  refine ⟨?_, ?_, ?_, ?_, ?_, ?_, ?_, ?_, ?_, ?_, ?_, ?_, ?_, ?_, ?_⟩ <;> after_results_simp
  · exact (W4_of_ne m ρ c main_arg2 (by decide)).trans e2
  · exact (W4_of_ne m ρ c main_arg3 (by decide)).trans e3
  · exact (W4_of_ne m ρ c main_arg4 (by decide)).trans e4
  · exact (W4_of_ne m ρ c main_arg5 (by decide)).trans e5
  · exact (W4_of_ne m ρ c main_arg6 (by decide)).trans e6
  · exact (W4_of_ne m ρ c main_arg7 (by decide)).trans e7
  · exact (W4_of_ne m ρ c main_arg8 (by decide)).trans e8
  · exact (W4_of_ne m ρ c main_arg9 (by decide)).trans e9
  · exact (W4_of_ne m ρ c main_arg10 (by decide)).trans e10
  · exact (W4_of_ne m ρ c main_arg11 (by decide)).trans e11
  · exact (W4_of_ne m ρ c main_arg12 (by decide)).trans e12
  · exact (W4_of_ne m ρ c main_arg13 (by decide)).trans e13
  · exact (W4_of_ne m ρ c main_arg14 (by decide)).trans e14
  · exact (W4_of_ne m ρ c main_arg15 (by decide)).trans e15
  · exact (W4_of_ne m ρ c main_arg16 (by decide)).trans e16

/-! ## The second region and the second aggregation -/

/-- The second region leaves the reference's stages up to the second matrix product. -/
theorem normProj_exit
    (hbody0 : ∀ (v0 : FVec Ideal S5000x1 .f32) (v2 : FVec Ideal S1x256 .f32), k0_pay1 (F := Ideal) v0 v2 = proj (R := 5000) v0 v2)
    (href0 : ∀ x0 x1, val_main_v4 (F := Ideal) x0 x1 = proj (R := 50000) x0 x1)
    (hbody : ∀ (v0 : FVec Ideal S5000x256 .f32) (v2 v6 v10 v17 v21 : FVec Ideal S256 .f32) (v28 : FVec Ideal S256x64 .f32),
      k1_pay1 (F := Ideal) v0 v2 v6 v10 v17 v21 v28 = normProj (R := 5000) v0 v2 v17 v21 v6 v10 v28)
    (href : ∀ x0 x1 x2 x3 x4 x5 x6 x7 x17, val_main_v63 (F := Ideal) x0 x1 x2 x3 x4 x5 x6 x7 x17
      = normProj (R := 50000) (val_main_v43 (F := Ideal) x0 x1 x17) x2 x3 x4 x5 x6 x7)
    (c : Dev nD) :
    W6 m ρ c (Proc.devRef .tc main_v44) = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg17)) := by
  rw [href]
  refine (W6_arr m ρ c 7).trans ((Blocks1.final (V5 m ρ) hbody c).trans ?_)
  show normProj (R := 50000) (W5 m ρ c (Proc.devRef .tc main_v43)) (W5 m ρ c (Proc.devRef .tc main_arg2)) (W5 m ρ c (Proc.devRef .tc main_arg3))
    (W5 m ρ c (Proc.devRef .tc main_arg4)) (W5 m ρ c (Proc.devRef .tc main_arg5)) (W5 m ρ c (Proc.devRef .tc main_arg6)) (W5 m ρ c (Proc.devRef .tc main_arg7)) = _
  obtain ⟨e2, e3, e4, e5, e6, e7, -⟩ := args_mid m ρ c
  rw [agg1 m ρ hbody0 href0 c, e2, e3, e4, e5, e6, e7]

theorem src_late0 (c : Dev nD) : W6 m ρ c (Proc.devRef .tc main_v5) = val_main_v6 (F := Ideal) (m ((c.tc : Thread nD τ).loc main_arg17)) :=
  (W6_of_ne m ρ c main_v5 (by decide)).trans (src_mid m ρ c)
theorem dst_late0 (c : Dev nD) : W6 m ρ c (Proc.devRef .tc main_v6) = val_main_v7 (F := Ideal) (m ((c.tc : Thread nD τ).loc main_arg17)) :=
  (W6_of_ne m ρ c main_v6 (by decide)).trans (dst_mid m ρ c)
theorem weight_late0 (c : Dev nD) : W6 m ρ c (Proc.devRef .tc main_v29) = val_main_v30 (F := Ideal) (m ((c.tc : Thread nD τ).loc main_arg17)) :=
  (W6_of_ne m ρ c main_v29 (by decide)).trans (weight_mid m ρ c)

set_option maxHeartbeats 2000000 in
/-- The stretch after the second region is the reference's second aggregation. -/
theorem agg2
    (hbody0 : ∀ (v0 : FVec Ideal S5000x1 .f32) (v2 : FVec Ideal S1x256 .f32), k0_pay1 (F := Ideal) v0 v2 = proj (R := 5000) v0 v2)
    (href0 : ∀ x0 x1, val_main_v4 (F := Ideal) x0 x1 = proj (R := 50000) x0 x1)
    (hbody : ∀ (v0 : FVec Ideal S5000x256 .f32) (v2 v6 v10 v17 v21 : FVec Ideal S256 .f32) (v28 : FVec Ideal S256x64 .f32),
      k1_pay1 (F := Ideal) v0 v2 v6 v10 v17 v21 v28 = normProj (R := 5000) v0 v2 v17 v21 v6 v10 v28)
    (href : ∀ x0 x1 x2 x3 x4 x5 x6 x7 x17, val_main_v63 (F := Ideal) x0 x1 x2 x3 x4 x5 x6 x7 x17
      = normProj (R := 50000) (val_main_v43 (F := Ideal) x0 x1 x17) x2 x3 x4 x5 x6 x7)
    (c : Dev nD) :
    W7 m ρ c (Proc.devRef .tc main_v57) = val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg17)) := by
  dsimp only [W7]
  simp only [hostOps2]
  after_results_simp
  rw [src_late0, dst_late0, weight_late0, normProj_exit m ρ hbody0 href0 hbody href c]
  rfl

set_option maxHeartbeats 8000000 in
/-- At the third region's entry the argument arrays it reads are as launched. -/
theorem args_late (c : Dev nD) :
    W7 m ρ c (Proc.devRef .tc main_arg8) = m ((c.tc : Thread nD τ).loc main_arg8)
    ∧ W7 m ρ c (Proc.devRef .tc main_arg9) = m ((c.tc : Thread nD τ).loc main_arg9)
    ∧ W7 m ρ c (Proc.devRef .tc main_arg10) = m ((c.tc : Thread nD τ).loc main_arg10)
    ∧ W7 m ρ c (Proc.devRef .tc main_arg11) = m ((c.tc : Thread nD τ).loc main_arg11)
    ∧ W7 m ρ c (Proc.devRef .tc main_arg12) = m ((c.tc : Thread nD τ).loc main_arg12)
    ∧ W7 m ρ c (Proc.devRef .tc main_arg13) = m ((c.tc : Thread nD τ).loc main_arg13)
    ∧ W7 m ρ c (Proc.devRef .tc main_arg14) = m ((c.tc : Thread nD τ).loc main_arg14)
    ∧ W7 m ρ c (Proc.devRef .tc main_arg15) = m ((c.tc : Thread nD τ).loc main_arg15)
    ∧ W7 m ρ c (Proc.devRef .tc main_arg16) = m ((c.tc : Thread nD τ).loc main_arg16) := by
  obtain ⟨-, -, -, -, -, -, e8, e9, e10, e11, e12, e13, e14, e15, e16⟩ := args_mid m ρ c
  dsimp only [W7]
  simp only [hostOps2]
  refine ⟨?_, ?_, ?_, ?_, ?_, ?_, ?_, ?_, ?_⟩ <;> after_results_simp
  · exact (W6_of_ne m ρ c main_arg8 (by decide)).trans e8
  · exact (W6_of_ne m ρ c main_arg9 (by decide)).trans e9
  · exact (W6_of_ne m ρ c main_arg10 (by decide)).trans e10
  · exact (W6_of_ne m ρ c main_arg11 (by decide)).trans e11
  · exact (W6_of_ne m ρ c main_arg12 (by decide)).trans e12
  · exact (W6_of_ne m ρ c main_arg13 (by decide)).trans e13
  · exact (W6_of_ne m ρ c main_arg14 (by decide)).trans e14
  · exact (W6_of_ne m ρ c main_arg15 (by decide)).trans e15
  · exact (W6_of_ne m ρ c main_arg16 (by decide)).trans e16

/-! ## The third region: the result -/

/-- The result buffer ends at the reference's last stage of the launch arguments. -/
theorem result_eq
    (hbody0 : ∀ (v0 : FVec Ideal S5000x1 .f32) (v2 : FVec Ideal S1x256 .f32), k0_pay1 (F := Ideal) v0 v2 = proj (R := 5000) v0 v2)
    (href0 : ∀ x0 x1, val_main_v4 (F := Ideal) x0 x1 = proj (R := 50000) x0 x1)
    (hbody1 : ∀ (v0 : FVec Ideal S5000x256 .f32) (v2 v6 v10 v17 v21 : FVec Ideal S256 .f32) (v28 : FVec Ideal S256x64 .f32),
      k1_pay1 (F := Ideal) v0 v2 v6 v10 v17 v21 v28 = normProj (R := 5000) v0 v2 v17 v21 v6 v10 v28)
    (href1 : ∀ x0 x1 x2 x3 x4 x5 x6 x7 x17, val_main_v63 (F := Ideal) x0 x1 x2 x3 x4 x5 x6 x7 x17
      = normProj (R := 50000) (val_main_v43 (F := Ideal) x0 x1 x17) x2 x3 x4 x5 x6 x7)
    (hbody2 : ∀ (v0 : FVec Ideal S5000x64 .f32) (v2 v6 v10 v17 v21 : FVec Ideal S64 .f32) (v28 : FVec Ideal S64x16 .f32)
        (v31 : FVec Ideal S16 .f32) (v38 : FVec Ideal S16x6 .f32) (v41 : FVec Ideal S6 .f32),
      k2_pay1 (F := Ideal) (k2_pay2 (F := Ideal) v0 v2 v6 v10 v17 v21 v28 v31 v38) v41 = head (R := 5000) v0 v2 v17 v21 v6 v10 v28 v31 v38 v41)
    (href2 : ∀ x0 x1 x2 x3 x4 x5 x6 x7 x8 x9 x10 x11 x12 x13 x14 x15 x16 x17,
      val_main_v131 (F := Ideal) x0 x1 x2 x3 x4 x5 x6 x7 x8 x9 x10 x11 x12 x13 x14 x15 x16 x17
        = head (R := 50000) (val_main_v102 (F := Ideal) x0 x1 x2 x3 x4 x5 x6 x7 x17) x8 x9 x10 x11 x12 x13 x14 x15 x16)
    (c : Dev nD) :
    W8 m ρ c (Proc.devRef .tc main_v58) = val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [href2]
  refine (W8_arr m ρ c 10).trans ((Blocks2.final (V7 m ρ) hbody2 c).trans ?_)
  show head (R := 50000) (W7 m ρ c (Proc.devRef .tc main_v57)) (W7 m ρ c (Proc.devRef .tc main_arg8)) (W7 m ρ c (Proc.devRef .tc main_arg9))
    (W7 m ρ c (Proc.devRef .tc main_arg10)) (W7 m ρ c (Proc.devRef .tc main_arg11)) (W7 m ρ c (Proc.devRef .tc main_arg12))
    (W7 m ρ c (Proc.devRef .tc main_arg13)) (W7 m ρ c (Proc.devRef .tc main_arg14)) (W7 m ρ c (Proc.devRef .tc main_arg15))
    (W7 m ρ c (Proc.devRef .tc main_arg16)) = _
  obtain ⟨e8, e9, e10, e11, e12, e13, e14, e15, e16⟩ := args_late m ρ c
  rw [agg2 m ρ hbody0 href0 hbody1 href1 c, e8, e9, e10, e11, e12, e13, e14, e15, e16]

end Cert.KernelIdeal.Glue

end
-- ==== Proof.lean ====
/- A two-layer graph convolution network with a small classifier: a program with three grid regions against host
   operations only.

   Both programs build the edge lists (the given edges, then one loop per node), count node degrees, weight every edge by
   the product of the inverse square roots of its end points' degrees, and twice gather feature rows along the edges,
   weight them and add them up per target node, by the same host operations. Between those stretches the kernel program
   runs a grid region, ten blocks of 5000 node rows each, where the reference applies host operations to all 50000 rows:
   the product of the feature column with the first weights; bias, normalization with running statistics, scale, shift,
   positive part and the product with the second weights; and the classifier with the logarithm of the softmax of each
   row. Each of these maps is local to a row, so computing it block by block and writing the blocks back gives the map
   of the whole array (Proof/Spec.lean states the three maps once, for any number of rows; Proof/Bodies.lean and
   Proof/RefStages.lean show that a region's arithmetic on a block, and the reference's stretch of host operations, are
   those maps; Proof/Blocks0–2.lean go from blocks to arrays; Proof/Glue.lean walks the kernel program's boundaries).
   On the extended reals a change of float format is the identity, a matrix product into a zero accumulator is the sum
   over the contracted coordinate on both sides, and a lane reduction is the same sum or maximum as the host's; no
   algebraic law beyond that is used, so the precondition is never opened.

   The three frames are the generated frame certificates (the reference's is its run with the result dropped), and the
   idealization rewrote no operation. -/
import proofs.«117283_j10685878633098_2_alg».proof.Defs
import proofs.«117283_j10685878633098_2_alg».proof.Proof.Gen.Kernel
import proofs.«117283_j10685878633098_2_alg».proof.Proof.Gen.Kernel.Frame
import proofs.«117283_j10685878633098_2_alg».proof.Proof.Gen.KernelIdeal
import proofs.«117283_j10685878633098_2_alg».proof.Proof.Gen.KernelIdeal.Frame
import proofs.«117283_j10685878633098_2_alg».proof.Proof.Gen.ReferenceIdeal
import proofs.«117283_j10685878633098_2_alg».proof.Proof.Gen.Pre_finite_inputs
import proofs.«117283_j10685878633098_2_alg».proof.Proof.RefRun
import proofs.«117283_j10685878633098_2_alg».proof.Proof.RefRead
import proofs.«117283_j10685878633098_2_alg».proof.Proof.RefStages
import proofs.«117283_j10685878633098_2_alg».proof.Proof.Bodies
import proofs.«117283_j10685878633098_2_alg».proof.Proof.KernelRun
import proofs.«117283_j10685878633098_2_alg».proof.Proof.Glue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On the extended reals the kernel program's result array ends at the last boundary's contents, which are the
    reference's last stage of the launch arguments; the reference's result ends at that stage of its own arguments,
    which agree. -/
theorem algebraic : Cert.algebraic_KernelIdeal_ReferenceIdeal := by
  intro m ρ m' ρ' _ hagree
  refine ⟨fun c => Cert.KernelIdeal.Gen.W8 m ρ c (Proc.devRef .tc Cert.KernelIdeal.main_v58),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16, h17⟩ := hagree c
  rw [Cert.ReferenceIdeal.ReadP.val_main_v131_eq, h0, h1, h2, h3, h4, h5, h6, h7, h8, h9, h10, h11, h12, h13, h14, h15, h16, h17]
  exact (Cert.KernelIdeal.Glue.result_eq m ρ Cert.GraphConv.Bodies.proj_body Cert.GraphConv.Ref.proj_ref
    Cert.GraphConv.Bodies.normProj_body Cert.GraphConv.Ref.normProj_ref
    Cert.GraphConv.Bodies.head_body Cert.GraphConv.Ref.head_ref c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
